-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x256 .f32) (main_arg13 : FVec F S256 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_v48 main_v49 main_v50

def fn_part1 {F : FTy → Type} [FloatOps F] (main_arg4 : FVec F S128x64 .f32) (main_arg5 : FVec F S64 .f32) (main_arg6 : FVec F S64x32 .f32) (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x256 .f32) (main_arg1 : FVec F S4096x4096 .f32) (main_arg2 : FVec F S256x128 .f32) (main_arg3 : FVec F S128 .f32) (main_arg4 : FVec F S128x64 .f32) (main_arg5 : FVec F S64 .f32) (main_arg6 : FVec F S64x32 .f32) (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S1x128 : Shape := ⟨2, ![1, 128]⟩
abbrev S1x64 : Shape := ⟨2, ![1, 64]⟩
abbrev S1x32 : Shape := ⟨2, ![1, 32]⟩
abbrev S1x256 : Shape := ⟨2, ![1, 256]⟩
abbrev S4096x32 : Shape := ⟨2, ![4096, 32]⟩
abbrev S1024x4096 : Shape := ⟨2, ![1024, 4096]⟩
abbrev S1024x32 : Shape := ⟨2, ![1024, 32]⟩
abbrev S4096x128 : Shape := ⟨2, ![4096, 128]⟩
abbrev S32x256 : Shape := ⟨2, ![32, 256]⟩
abbrev S1024x128 : Shape := ⟨2, ![1024, 128]⟩
abbrev S1024x64 : Shape := ⟨2, ![1024, 64]⟩
abbrev S1024x256 : Shape := ⟨2, ![1024, 256]⟩
abbrev S32x1024 : Shape := ⟨2, ![32, 1024]⟩

abbrev nBuf : Space → Nat
  | .hbm => 22
  | .vmem => 21
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S1x128, .f32⟩
  | .hbm, ⟨15, _⟩ => ⟨S1x64, .f32⟩
  | .hbm, ⟨16, _⟩ => ⟨S1x32, .f32⟩
  | .hbm, ⟨17, _⟩ => ⟨S1x64, .f32⟩
  | .hbm, ⟨18, _⟩ => ⟨S1x128, .f32⟩
  | .hbm, ⟨19, _⟩ => ⟨S1x256, .f32⟩
  | .hbm, ⟨20, _⟩ => ⟨S4096x32, .f32⟩
  | .hbm, ⟨21, _⟩ => ⟨S4096x256, .f32⟩
  | .local _ .vmem, ⟨0, _⟩ => ⟨S4096x256, .f32⟩
  | .local _ .vmem, ⟨1, _⟩ => ⟨S1024x4096, .f32⟩
  | .local _ .vmem, ⟨2, _⟩ => ⟨S1024x4096, .f32⟩
  | .local _ .vmem, ⟨3, _⟩ => ⟨S256x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S64x32, .f32⟩
  | .local _ .vmem, ⟨8, _⟩ => ⟨S1x32, .f32⟩
  | .local _ .vmem, ⟨9, _⟩ => ⟨S32x64, .f32⟩
  | .local _ .vmem, ⟨10, _⟩ => ⟨S1x64, .f32⟩
  | .local _ .vmem, ⟨11, _⟩ => ⟨S64x128, .f32⟩
  | .local _ .vmem, ⟨12, _⟩ => ⟨S1x128, .f32⟩
  | .local _ .vmem, ⟨13, _⟩ => ⟨S128x256, .f32⟩
  | .local _ .vmem, ⟨14, _⟩ => ⟨S1x256, .f32⟩
  | .local _ .vmem, ⟨15, _⟩ => ⟨S1024x32, .f32⟩
  | .local _ .vmem, ⟨16, _⟩ => ⟨S1024x32, .f32⟩
  | .local _ .vmem, ⟨17, _⟩ => ⟨S4096x256, .f32⟩
  | .local _ .vmem, ⟨18, _⟩ => ⟨S4096x128, .f32⟩
  | .local _ .vmem, ⟨19, _⟩ => ⟨S4096x32, .f32⟩
  | .local _ .vmem, ⟨20, _⟩ => ⟨S32x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_v0_1 : Ref sig .tc := ⟨.hbm, 20, rfl⟩
abbrev main_v0_0 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v33 : BitVec 32 := Scalar.muli arg0 c1024_i32
  let v34 : Index := Scalar.indexCast v33
  let c0_22 : Index := 0#32
  ![v34.toNat, 0]
def k0_cond2 (i : grid0.Coords) : BitVec 1 :=
  let arg0 : BitVec 32 := BitVec.ofNat 32 (i 0).val
  let c3_i32 : BitVec 32 := 3#32
  let v69 : BitVec 1 := Scalar.cmpi .eq arg0 c3_i32
  let v70 : BitVec 32 := Scalar.extui v69
  let c0_i32_45 : BitVec 32 := 0#32
  let v71 : BitVec 1 := Scalar.cmpi .ne v70 c0_i32_45
  v71

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4096x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  shapeCasts_S128_S1x128 : S128.ShapeCasts S1x128
  shapeCasts_S64_S1x64 : S64.ShapeCasts S1x64
  shapeCasts_S32_S1x32 : S32.ShapeCasts S1x32
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x128_S256x128_0_0 : ∀ a, (![0, 0] : Fin 2 → Nat) a + S256x128.size a ≤ S256x128.size a
  h_S256x128 : 0 < S256x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1024x4096_S1024x4096_0_0 : ∀ a, (![0, 0] : Fin 2 → Nat) a + S1024x4096.size a ≤ S1024x4096.size a
  h_S1024x4096 : 0 < S1024x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x64_S32x64_0_0 : ∀ a, (![0, 0] : Fin 2 → Nat) a + S32x64.size a ≤ S32x64.size a
  h_S32x64 : 0 < S32x64.numel
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  transposes_S1024x32_p1_0_S32x1024 : S1024x32.Transposes [1, 0] S32x1024
  inb_S4096x32_S4096x32_0_0 : ∀ a, (![0, 0] : Fin 2 → Nat) a + S4096x32.size a ≤ S4096x32.size a
  h_S4096x32 : 0 < S4096x32.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  dot_S4096x256_S256x128_S4096x128_1_0_0_1_n_n_wf : DotDims.WF S4096x256 S256x128 S4096x128 [1] [0] [0] [1] [] []
  dot_S1024x4096_S4096x128_S1024x128_1_0_0_1_n_n_wf : DotDims.WF S1024x4096 S4096x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x64_S1024x64_1_0_0_1_n_n_wf : DotDims.WF S1024x32 S32x64 S1024x64 [1] [0] [0] [1] [] []
  dot_S1024x64_S64x128_S1024x128_1_0_0_1_n_n_wf : DotDims.WF S1024x64 S64x128 S1024x128 [1] [0] [0] [1] [] []
  dot_S1024x128_S128x256_S1024x256_1_0_0_1_n_n_wf : DotDims.WF S1024x128 S128x256 S1024x256 [1] [0] [0] [1] [] []
  dot_S32x1024_S1024x256_S32x256_1_0_0_1_n_n_wf : DotDims.WF S32x1024 S1024x256 S32x256 [1] [0] [0] [1] [] []
  dot_S4096x32_S32x256_S4096x256_1_0_0_1_n_n_wf : DotDims.WF S4096x32 S32x256 S4096x256 [1] [0] [0] [1] [] []
  hrank0 : 0 < grid0.rank
  k0_off1_inb : ∀ i : grid0.Coords, ∀ a, (k0_off1 i) a + S1024x32.size a ≤ S4096x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .f32 = 32 ∨ (Rect.block (s := S4096x4096) S1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x64.size a ≤ S32x64.size a
  hwx0_8 : ∀ i : grid0.Coords, EltTy.bits .f32 = 32 ∨ (Rect.block (s := S32x64) S32x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .f32 = 32 ∨ (Rect.block (s := S64x128) S64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x256.size a ≤ S128x256.size a
  hwx0_12 : ∀ i : grid0.Coords, EltTy.bits .f32 = 32 ∨ (Rect.block (s := S128x256) S128x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x32.size a ≤ S4096x32.size a
  hwx0_14 : ∀ i : grid0.Coords, EltTy.bits .f32 = 32 ∨ (Rect.block (s := S4096x32) S1024x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S4096x256.size a ≤ S4096x256.size a
  hwx0_15 : ∀ i : grid0.Coords, EltTy.bits .f32 = 32 ∨ (Rect.block (s := S4096x256) S4096x256.size (cc0_transform_15 i) (hinb0_15 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v4) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v5) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S1024x32.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S4096x256.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S4096x128 : Shape := ⟨2, ![4096, 128]⟩
abbrev S1x128 : Shape := ⟨2, ![1, 128]⟩
abbrev S_ : Shape := ⟨0, ![]⟩
abbrev S4096x64 : Shape := ⟨2, ![4096, 64]⟩
abbrev S1x64 : Shape := ⟨2, ![1, 64]⟩
abbrev S4096x32 : Shape := ⟨2, ![4096, 32]⟩
abbrev S1x32 : Shape := ⟨2, ![1, 32]⟩
abbrev S32x4096 : Shape := ⟨2, ![32, 4096]⟩
abbrev S1x256 : Shape := ⟨2, ![1, 256]⟩

abbrev nBuf : Space → Nat
  | .hbm => 70
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S4096x128, .f32⟩
  | .hbm, ⟨15, _⟩ => ⟨S4096x128, .f32⟩
  | .hbm, ⟨16, _⟩ => ⟨S1x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096x128, .f32⟩
  | .hbm, ⟨21, _⟩ => ⟨S4096x128, .i1⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x64, .f32⟩
  | .hbm, ⟨27, _⟩ => ⟨S1x64, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .i1⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S4096x32, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S32x4096, .f32⟩
  | .hbm, ⟨42, _⟩ => ⟨S4096x4096, .f32⟩
  | .hbm, ⟨43, _⟩ => ⟨S4096x64, .f32⟩
  | .hbm, ⟨44, _⟩ => ⟨S1x64, .f32⟩
  | .hbm, ⟨45, _⟩ => ⟨S4096x64, .f32⟩
  | .hbm, ⟨46, _⟩ => ⟨S4096x64, .f32⟩
  | .hbm, ⟨47, _⟩ => ⟨S_, .f32⟩
  | .hbm, ⟨48, _⟩ => ⟨S4096x64, .f32⟩
  | .hbm, ⟨49, _⟩ => ⟨S4096x64, .i1⟩
  | .hbm, ⟨50, _⟩ => ⟨S_, .f32⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x128, .f32⟩
  | .hbm, ⟨55, _⟩ => ⟨S1x128, .f32⟩
  | .hbm, ⟨56, _⟩ => ⟨S4096x128, .f32⟩
  | .hbm, ⟨57, _⟩ => ⟨S4096x128, .f32⟩
  | .hbm, ⟨58, _⟩ => ⟨S_, .f32⟩
  | .hbm, ⟨59, _⟩ => ⟨S4096x128, .f32⟩
  | .hbm, ⟨60, _⟩ => ⟨S4096x128, .i1⟩
  | .hbm, ⟨61, _⟩ => ⟨S_, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x256, .f32⟩
  | .hbm, ⟨66, _⟩ => ⟨S4096x256, .f32⟩
  | .hbm, ⟨67, _⟩ => ⟨S1x256, .f32⟩
  | .hbm, ⟨68, _⟩ => ⟨S4096x256, .f32⟩
  | .hbm, ⟨69, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  transposes_S4096x32_S32x4096_1_0 : S4096x32.Transposes [1, 0] S32x4096
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x64_S4096x64_1_0_0_1_n_n_wf : DotDims.WF S4096x128 S128x64 S4096x64 [1] [0] [0] [1] [] []
  dot_S4096x64_S64x32_S4096x32_1_0_0_1_n_n_wf : DotDims.WF S4096x64 S64x32 S4096x32 [1] [0] [0] [1] [] []
  dot_S4096x32_S32x4096_S4096x4096_1_0_0_1_n_n_wf : DotDims.WF S4096x32 S32x4096 S4096x4096 [1] [0] [0] [1] [] []
  dot_S4096x32_S32x64_S4096x64_1_0_0_1_n_n_wf : DotDims.WF S4096x32 S32x64 S4096x64 [1] [0] [0] [1] [] []
  dot_S4096x64_S64x128_S4096x128_1_0_0_1_n_n_wf : DotDims.WF S4096x64 S64x128 S4096x128 [1] [0] [0] [1] [] []
  dot_S4096x128_S128x256_S4096x256_1_0_0_1_n_n_wf : DotDims.WF S4096x128 S128x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.BodyShared.lean ====
/-
  What the runs of the kernel body share. The body branches twice on the grid coordinate: at the first of the four
  points it computes the projected features into a scratch buffer and zeroes the accumulator, at the last it
  multiplies the codes by the accumulator into the second output. Here: the two conditions in closed form over the
  grid, where each window is idle (the second output everywhere but at the last point), the staging memrefs a point
  is called with, the three scratch buffers, and the launch invariant spelled buffer by buffer.
-/
import proofs.«132249_g48112223650413_cont_sun_m_1297_17_alg».proof.Proof.Gen.KernelIdeal.Frame
import proofs.«132249_g48112223650413_cont_sun_m_1297_17_alg».proof.Proof.Gen.KernelIdeal.Skeleton
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The first branch's condition, from the grid coordinate: "the coordinate is 0". -/
abbrev atFirst (i : grid0.Coords) : Prop := (Scalar.cmpi .ne (Scalar.extui (Scalar.cmpi .eq (BitVec.ofNat 32 (i 0).val) 0#32)) 0#32) = 1#1
/-- It holds at the first point only. -/
theorem atFirst_iff : ∀ t : Fin cfg0.N, atFirst (grid0.coords t) ↔ t.val % 4 = 0 :=
  (by decide +kernel : ∀ t : Fin grid0.N, atFirst (grid0.coords t) ↔ t.val % 4 = 0)

/-- The second branch's condition: "the coordinate is 3". -/
abbrev atLast (i : grid0.Coords) : Prop := k0_cond2 i = 1#1
/-- It holds at the last point only. -/
theorem atLast_iff : ∀ t : Fin cfg0.N, atLast (grid0.coords t) ↔ t.val % 4 = 3 :=
  (by decide +kernel : ∀ t : Fin grid0.N, atLast (grid0.coords t) ↔ t.val % 4 = 3)

/-- The row offset of a point's slice of the code scratch is 1024 times the point's number, its column offset 0. -/
theorem sliceOff_eq : ∀ t : Fin cfg0.N, k0_off1 (grid0.coords t) = ![1024 * t.val, 0] :=
  (by decide +kernel : ∀ t : Fin grid0.N, k0_off1 (grid0.coords t) = ![1024 * t.val, 0])

/-- Window 0 is never idle. -/
theorem live_0 : ∀ t : Fin cfg0.N, cfg0.idle 0 (grid0.coords t) = false := by decide +kernel
/-- Window 1 is never idle. -/
theorem live_1 : ∀ t : Fin cfg0.N, cfg0.idle 1 (grid0.coords t) = false := by decide +kernel
/-- Window 2 is never idle. -/
theorem live_2 : ∀ t : Fin cfg0.N, cfg0.idle 2 (grid0.coords t) = false := by decide +kernel
/-- Window 3 is never idle. -/
theorem live_3 : ∀ t : Fin cfg0.N, cfg0.idle 3 (grid0.coords t) = false := by decide +kernel
/-- Window 4 is never idle. -/
theorem live_4 : ∀ t : Fin cfg0.N, cfg0.idle 4 (grid0.coords t) = false := by decide +kernel
/-- Window 5 is never idle. -/
theorem live_5 : ∀ t : Fin cfg0.N, cfg0.idle 5 (grid0.coords t) = false := by decide +kernel
/-- Window 6 is never idle. -/
theorem live_6 : ∀ t : Fin cfg0.N, cfg0.idle 6 (grid0.coords t) = false := by decide +kernel
/-- Window 7 is never idle. -/
theorem live_7 : ∀ t : Fin cfg0.N, cfg0.idle 7 (grid0.coords t) = false := by decide +kernel
/-- Window 8 is never idle. -/
theorem live_8 : ∀ t : Fin cfg0.N, cfg0.idle 8 (grid0.coords t) = false := by decide +kernel
/-- Window 9 is never idle. -/
theorem live_9 : ∀ t : Fin cfg0.N, cfg0.idle 9 (grid0.coords t) = false := by decide +kernel
/-- Window 10 is never idle. -/
theorem live_10 : ∀ t : Fin cfg0.N, cfg0.idle 10 (grid0.coords t) = false := by decide +kernel
/-- Window 11 is never idle. -/
theorem live_11 : ∀ t : Fin cfg0.N, cfg0.idle 11 (grid0.coords t) = false := by decide +kernel
/-- Window 12 is never idle. -/
theorem live_12 : ∀ t : Fin cfg0.N, cfg0.idle 12 (grid0.coords t) = false := by decide +kernel
/-- Window 13 is never idle. -/
theorem live_13 : ∀ t : Fin cfg0.N, cfg0.idle 13 (grid0.coords t) = false := by decide +kernel
/-- Window 14 is never idle. -/
theorem live_14 : ∀ t : Fin cfg0.N, cfg0.idle 14 (grid0.coords t) = false := by decide +kernel
/-- The second output is idle exactly off the last point. -/
theorem idle_15 : ∀ t : Fin cfg0.N, cfg0.idle 15 (grid0.coords t) = true ↔ ¬ t.val % 4 = 3 :=
  (by decide +kernel : ∀ t : Fin grid0.N, cfg0.idle 15 (grid0.coords t) = true ↔ ¬ t.val % 4 = 3)

abbrev ms_0 (t : Fin cfg0.N) : Memref sig .tc .vmem S4096x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128x64 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x64 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S64x32 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x32 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S32x64 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x64 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S64x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x128 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S128x256 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x256 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S1024x32 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S4096x256 .f32 := win0_15.stage (cfg0.slots t 15)
abbrev hs_15 (t : Fin cfg0.N) : (ms_15 t).IsWhole := hstage0_15 ((cfg0.slots t 15).cast nbuf0_15)
/-- The scratch operands: the projected features, the codes of all rows, the accumulator. -/
abbrev scSup : Memref sig .tc .vmem S4096x128 .f32 := Memref.whole cc0_scratch0
abbrev scCode : Memref sig .tc .vmem S4096x32 .f32 := Memref.whole cc0_scratch1
abbrev scAcc : Memref sig .tc .vmem S32x256 .f32 := Memref.whole cc0_scratch2

/-- The launch invariant with the scratch operands as memrefs owned at some contents. -/
theorem launchInv_eq (c : Dev nD) :
    (Pipeline.ΦA spec0 c : sProp 𝕄)
      = iprop(iprop((∃ d, owns (c : Thread nD τ) scSup fullShare d) ∗ (∃ d, owns (c : Thread nD τ) scCode fullShare d) ∗ (∃ d, owns (c : Thread nD τ) scAcc fullShare d)) ∗ (∃ r, prngReg c r)) := by
  unfold Pipeline.ΦA; rw [scopedRest0_eq]; simp only [scSup, scCode, scAcc, owns_whole]; try rfl

end Cert.KernelIdeal.Body

end
-- ==== Proof.BodyFirst.lean ====
/-
  The kernel body run at the FIRST grid point (the first branch taken, the second not). On whole staging memrefs —
  the fourteen inputs at their blocks, the first output and the three scratch buffers at anything — the body runs
  without a fault and hands back the inputs as they were and, for every buffer it stored into, the buffer with its
  stores written, newest first: the first output (the block's codes), the feature scratch (x · W₀, stored whole),
  the code scratch (the block's codes in its rows [0, 1024)), the accumulator (zeroed, then the first block's
  product added). The lists of stores are the witness the run finds. The second output's buffer is not touched.
-/
import proofs.«132249_g48112223650413_cont_sun_m_1297_17_alg».proof.Proof.BodyShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : atFirst i) (hc1 : ¬atLast i)
    (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) :
    Σ' (L14 : List (View.Piece (Elt F) S1024x32 .f32)) (L17 : List (View.Piece (Elt F) S4096x128 .f32)) (L18 : List (View.Piece (Elt F) S4096x32 .f32)), { L19 : List (View.Piece (Elt F) S32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0__gcn_kernel_eq_skeleton]; unfold cc0__gcn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [HS0]
    · iexists _; iexact HS0
    isplitl [HS1]
    · iexists _; iexact HS1
    iexists _; iexact HS2

end Cert.KernelIdeal.Body

end
-- ==== Proof.BodyMiddle.lean ====
/-
  The kernel body run at a MIDDLE grid point (neither branch taken). The feature scratch holds what the first point
  left (`xs0`) and is only read; the code scratch holds `xs1` and gets the block's codes written into the point's
  own 1024 rows, the rest kept; the accumulator holds `xs2` and is stored whole with the block's product added. The
  first output is stored whole with the block's codes. The second output's buffer is not touched.
-/
import proofs.«132249_g48112223650413_cont_sun_m_1297_17_alg».proof.Proof.BodyFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runMiddle (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : ¬atFirst i) (hc1 : ¬atLast i)
    (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) (xs0 : Vec F S4096x128 .f32) (xs1 : Vec F S4096x32 .f32) (xs2 : Vec F S32x256 .f32) :
    Σ' (L14 : List (View.Piece (Elt F) S1024x32 .f32)) (L18 : List (View.Piece (Elt F) S4096x32 .f32)), { L19 : List (View.Piece (Elt F) S32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg17 fullShare xs0 ∗ owns (c : Thread nD τ) arg18 fullShare xs1 ∗ owns (c : Thread nD τ) arg19 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ owns (c : Thread nD τ) arg17 fullShare xs0 ∗ (arg18.view.loc (c : Thread nD τ) ↦[arg18.view.set]{fullShare} arg18.view.writes (Elt F) (harg18.unread xs1) L18) ∗ (∃ f, arg19.view.loc (c : Thread nD τ) ↦[arg19.view.set]{fullShare} arg19.view.writes (Elt F) f L19)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__gcn_kernel_eq_skeleton]; unfold cc0__gcn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hfs0; obtain rfl := harg18.eq_unread hfs1; obtain rfl := harg19.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [HS0]
    · iexists _; isplitr; · ipureintro; exact harg17.read_unread _
      iexact HS0
    isplitl [HS1]
    · iexact HS1
    iexists _; iexact HS2

end Cert.KernelIdeal.Body

end
-- ==== Proof.BodyLast.lean ====
/-
  The kernel body run at the LAST grid point (the second branch taken). As at a middle point, and then the whole code
  scratch and the accumulator are read back and their product plus the bias row is stored, whole, into the second
  output, whose buffer may hold anything before.
-/
import proofs.«132249_g48112223650413_cont_sun_m_1297_17_alg».proof.Proof.BodyMiddle

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runLast (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : ¬atFirst i) (hc1 : atLast i)
    (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) (xs0 : Vec F S4096x128 .f32) (xs1 : Vec F S4096x32 .f32) (xs2 : Vec F S32x256 .f32) :
    Σ' (L14 : List (View.Piece (Elt F) S1024x32 .f32)) (L15 : List (View.Piece (Elt F) S4096x256 .f32)) (L18 : List (View.Piece (Elt F) S4096x32 .f32)), { L19 : List (View.Piece (Elt F) S32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ owns (c : Thread nD τ) arg19 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0 ∗ (arg18.view.loc (c : Thread nD τ) ↦[arg18.view.set]{fullShare} arg18.view.writes (Elt F) (harg18.unread xs1) L18) ∗ (∃ f, arg19.view.loc (c : Thread nD τ) ↦[arg19.view.set]{fullShare} arg19.view.writes (Elt F) f L19)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0__gcn_kernel_eq_skeleton]; unfold cc0__gcn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hfs0; obtain rfl := harg18.eq_unread hfs1; obtain rfl := harg19.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [H15]
    · iexists _; iexact H15
    isplitl [HS0]
    · iexists _; isplitr; · ipureintro; exact harg17.read_unread _
      iexact HS0
    isplitl [HS1]
    · iexact HS1
    iexists _; iexact HS2

end Cert.KernelIdeal.Body

end
-- ==== Proof.Carried.lean ====
/-
  What the kernel leaves behind, point by point, as terms over the windows' blocks.

  The feature scratch holds, from the first point on, the product of the first point's `x` and `W₀` blocks
  (`supC`). Point `t` computes the codes of its 1024 rows from its adjacency block and that scratch (`codeBlk t`),
  stores them in the first output and into rows [1024·t, 1024·(t+1)) of the code scratch — so after point `n` the code
  scratch agrees with the blocks' codes on the rows of points 0..n (`codesOk n`) and, once every point has run, is
  `codesAll` —, and adds the block's `zᵀ · g` to the accumulator (`accStep`; `accAt n` after point `n`, from the
  zero array). The last point stores `codes · accumulator + bias` into the second output (`xoutAt`).
-/
import proofs.«132249_g48112223650413_cont_sun_m_1297_17_alg».proof.Proof.BodyShared
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ)

theorem four_points : cfg0.N = 4 := N_0

/-- The first grid point. -/
def firstPt : Fin cfg0.N := ⟨0, by rw [four_points]; decide⟩

/-- The projected features `x · W₀` as the first point computes them. -/
def supC (c : Dev nD) : Vec F S4096x128 .f32 := k0_pay3 (iblk m c 0 firstPt) (iblk m c 2 firstPt)

/-- The codes of point `t`'s 1024 rows. -/
def codeBlk (c : Dev nD) (t : Fin cfg0.N) : Vec F S1024x32 .f32 :=
  k0_pay5 (iblk m c 1 t) (supC m c) (iblk m c 3 t) (iblk m c 4 t) (iblk m c 5 t) (iblk m c 6 t) (iblk m c 7 t)

/-- The accumulator after point `t`, if it held `prev` before: `prev` plus the block's `zᵀ · g`. -/
def accStep (c : Dev nD) (t : Fin cfg0.N) (prev : Vec F S32x256 .f32) : Vec F S32x256 .f32 :=
  k0_pay1 (k0_pay7 (codeBlk m c t) (iblk m c 8 t) (iblk m c 9 t) (iblk m c 10 t) (iblk m c 11 t) (iblk m c 12 t) prev)

/-- The accumulator after point `n`: zeroed at the first point, then one block added per point. -/
def accAt (c : Dev nD) : (n : ℕ) → n < cfg0.N → Vec F S32x256 .f32
  | 0, hn => accStep m c ⟨0, hn⟩ (k0_pay4 (F := F))
  | n + 1, hn => accStep m c ⟨n + 1, hn⟩ (accAt c n (Nat.lt_of_succ_lt hn))

theorem accAt_zero (c : Dev nD) (t : Fin cfg0.N) (hz : t.val = 0) :
    accAt m c t.val t.isLt = accStep m c t (k0_pay4 (F := F)) := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = accStep m c t (accAt m c (t.val - 1) (Nat.lt_of_le_of_lt (Nat.sub_le _ _) t.isLt)) := by
  obtain ⟨n, hn⟩ := t
  cases n with
  | zero => exact absurd rfl hz
  | succ n => rfl

/-- The code scratch `zs` agrees with the blocks' codes on the rows of the points up to `n`: row `1024·t + p`, column
    `k` holds entry `(p, k)` of point `t`'s codes. -/
def codesOk (c : Dev nD) (n : ℕ) (zs : Vec F S4096x32 .f32) : Prop :=
  ∀ t : Fin cfg0.N, t.val ≤ n → ∀ (p : S1024x32.Idx) (y : S4096x32.Idx),
    (y 0).val = 1024 * t.val + (p 0).val → (y 1).val = (p 1).val → zs y = k0_pay6 (codeBlk m c t) p

/-- The point whose block holds row `r`. -/
def pointOf (r : ℕ) (hr : r < 4096) : Fin cfg0.N := ⟨r / 1024, by rw [four_points]; omega⟩

/-- The code scratch once every point has stored its rows. -/
def codesAll (c : Dev nD) : Vec F S4096x32 .f32 := fun y =>
  k0_pay6 (codeBlk m c (pointOf (y 0).val (y 0).isLt))
    (ValueIdx.ix2 (⟨(y 0).val % 1024, Nat.mod_lt _ (by decide)⟩ : Fin 1024) (⟨(y 1).val, (y 1).isLt⟩ : Fin 32))

/-- A code scratch right on every point's rows is `codesAll`. -/
theorem eq_codesAll_of_codesOk (c : Dev nD) (n : ℕ) (hn : 3 ≤ n) (zs : Vec F S4096x32 .f32) (h : codesOk m c n zs) :
    zs = codesAll m c := by
  funext y
  have hr : (y 0).val < 4096 := (y 0).isLt
  exact h (pointOf (y 0).val hr) (by show (y 0).val / 1024 ≤ n; omega) _ y
    (by show (y 0).val = 1024 * ((y 0).val / 1024) + (y 0).val % 1024; omega) rfl

/-- What the last point stores into the second output: the codes times the accumulator, plus the bias row. -/
def xoutAt (c : Dev nD) (t : Fin cfg0.N) : Vec F S4096x256 .f32 :=
  k0_pay2 (codesAll m c) (accAt m c t.val t.isLt) (iblk m c 13 t)

end Cert.KernelIdeal.Body

end
-- ==== Proof.FrameData.lean ====
/-
  The pipeline's proof data and the body obligation.

  Between points the kernel carries three scratch buffers: after point `n` the feature scratch holds `supC`, the
  accumulator `accAt n`, and the code scratch SOME contents right on the rows of points 0..n (`codesOk n`: its other rows
  still hold whatever the buffer held at launch, which nothing names). That is the invariant `carried`; before the first
  point it is the launch invariant (every scratch at anything). After the body at point `t` every input's buffer holds
  its block, the first output's buffer the point's codes, and the second output's buffer — idle until the last point,
  where it is handed back as found — the product the last point stores.
-/
import proofs.«132249_g48112223650413_cont_sun_m_1297_17_alg».proof.Proof.BodyLast
import proofs.«132249_g48112223650413_cont_sun_m_1297_17_alg».proof.Proof.Carried

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`. -/
def carried (c : Dev nD) : (n : ℕ) → n ≤ cfg0.N → sProp 𝕄
  | 0, _ => Pipeline.ΦA spec0 c
  | n + 1, hn => iprop(iprop(owns (c : Thread nD τ) scSup fullShare (supC m c) ∗ (∃ zs, ⌜codesOk m c n zs⌝ ∗ owns (c : Thread nD τ) scCode fullShare zs) ∗ owns (c : Thread nD τ) scAcc fullShare (accAt m c n hn)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scSup fullShare (supC m c) ∗ (∃ zs, ⌜codesOk m c n zs⌝ ∗ owns (c : Thread nD τ) scCode fullShare zs) ∗ owns (c : Thread nD τ) scAcc fullShare (accAt m c n hn)) ∗ (∃ r, prngReg c r)) := rfl

theorem carried_pos (c : Dev nD) (n : ℕ) (h : n ≤ cfg0.N) (hz : n ≠ 0) :
    carried m c n h = iprop(iprop(owns (c : Thread nD τ) scSup fullShare (supC m c) ∗ (∃ zs, ⌜codesOk m c (n - 1) zs⌝ ∗ owns (c : Thread nD τ) scCode fullShare zs) ∗ owns (c : Thread nD τ) scAcc fullShare (accAt m c (n - 1) (by omega))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => codeBlk m c t
    | ⟨15, _⟩ => xoutAt m c t
    | ⟨_ + 16, h⟩ => absurd h (Nat.not_lt.2 (Nat.le_add_left _ _))
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = codeBlk m c t := by dsimp only [dats]
theorem after_15 (c : Dev nD) (t : Fin cfg0.N) : (dats m 0 c).after 15 t = xoutAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

end Cert.KernelIdeal.Body

end
-- ==== Proof.Pieces.lean ====
/-
  The stores each run found, read as values. Every buffer the body stores whole ends at the stored payload, a pure term
  of the blocks the body loaded (a load of a buffer just stored whole reads that payload back); the code scratch gets
  one store, of the block's codes, through the point's 1024 rows. Each list of stores covers its buffer where it claims
  to, so what the buffer holds afterwards does not depend on what it held before.
-/
import proofs.«132249_g48112223650413_cont_sun_m_1297_17_alg».proof.Proof.BodyLast
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem zero_offsets : (![0, 0] : Fin 2 → ℕ) = fun _ => 0 :=
  funext fun a => by match a with | ⟨0, _⟩ => rfl | ⟨1, _⟩ => rfl

section First
variable (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : atFirst i) (hc1 : ¬atLast i) (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32)

theorem first_out : View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1 = (k0_pay5 x1 (k0_pay3 x0 x2) x3 x4 x5 x6 x7) := by
  unfold runFirst; dsimp only; sl_unfold_words
  rw [View.canon_unit_zero (S := S1024x32) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem first_sup : View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1 = k0_pay3 x0 x2 := by
  unfold runFirst; dsimp only; sl_unfold_words
  rw [View.canon_unit_zero (S := S4096x128) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem first_codes : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.2.1 = [⟨Rect.unit (s := S4096x32) (k0_off1 i) S1024x32.size (k0_off1_inb i), k0_pay6 (k0_pay5 x1 (k0_pay3 x0 x2) x3 x4 x5 x6 x7)⟩] := by
  unfold runFirst; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem first_acc : View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.2.2.1 = k0_pay1 (k0_pay7 (k0_pay5 x1 (k0_pay3 x0 x2) x3 x4 x5 x6 x7) x8 x9 x10 x11 x12 (k0_pay4 (F := F))) := by
  unfold runFirst; dsimp only; sl_unfold_words
  rw [View.canon_cons_unit_zero (S := S32x256) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem first_out_cover (y : S1024x32.Idx) : ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1, y ∈ pc.1.set :=
  View.cover_of_tiledL _ S1024x32.size (by sl_kernel_rfl) y
theorem first_sup_cover (y : S4096x128.Idx) : ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1, y ∈ pc.1.set :=
  View.cover_of_tiledL _ S4096x128.size (by sl_kernel_rfl) y
theorem first_acc_cover (y : S32x256.Idx) : ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.2.2.1, y ∈ pc.1.set :=
  View.cover_of_tiledL _ S32x256.size (by sl_kernel_rfl) y
end First

section Middle
variable (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : ¬atFirst i) (hc1 : ¬atLast i) (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) (xs0 : Vec F S4096x128 .f32) (xs1 : Vec F S4096x32 .f32) (xs2 : Vec F S32x256 .f32)

theorem middle_out : View.canon (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).1 = (k0_pay5 x1 xs0 x3 x4 x5 x6 x7) := by
  unfold runMiddle; dsimp only; sl_unfold_words
  rw [View.canon_unit_zero (S := S1024x32) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem middle_codes : (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.1 = [⟨Rect.unit (s := S4096x32) (k0_off1 i) S1024x32.size (k0_off1_inb i), k0_pay6 (k0_pay5 x1 xs0 x3 x4 x5 x6 x7)⟩] := by
  unfold runMiddle; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem middle_acc : View.canon (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.1 = k0_pay1 (k0_pay7 (k0_pay5 x1 xs0 x3 x4 x5 x6 x7) x8 x9 x10 x11 x12 xs2) := by
  unfold runMiddle; dsimp only; sl_unfold_words
  rw [View.canon_unit_zero (S := S32x256) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem middle_out_cover (y : S1024x32.Idx) : ∃ pc ∈ (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).1, y ∈ pc.1.set :=
  View.cover_of_tiledL _ S1024x32.size (by sl_kernel_rfl) y
theorem middle_acc_cover (y : S32x256.Idx) : ∃ pc ∈ (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.1, y ∈ pc.1.set :=
  View.cover_of_tiledL _ S32x256.size (by sl_kernel_rfl) y
end Middle

section Last
variable (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : ¬atFirst i) (hc1 : atLast i) (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) (xs0 : Vec F S4096x128 .f32) (xs1 : Vec F S4096x32 .f32) (xs2 : Vec F S32x256 .f32)

theorem last_out : View.canon (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).1 = (k0_pay5 x1 xs0 x3 x4 x5 x6 x7) := by
  unfold runLast; dsimp only; sl_unfold_words
  rw [View.canon_unit_zero (S := S1024x32) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem last_codes : (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.1 = [⟨Rect.unit (s := S4096x32) (k0_off1 i) S1024x32.size (k0_off1_inb i), k0_pay6 (k0_pay5 x1 xs0 x3 x4 x5 x6 x7)⟩] := by
  unfold runLast; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem last_acc : View.canon (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.2.1 = k0_pay1 (k0_pay7 (k0_pay5 x1 xs0 x3 x4 x5 x6 x7) x8 x9 x10 x11 x12 xs2) := by
  unfold runLast; dsimp only; sl_unfold_words
  rw [View.canon_unit_zero (S := S32x256) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem last_xout : View.canon (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.1
    = k0_pay2 (arg18.view.read (Elt F) (arg18.view.writes (Elt F) (harg18.unread xs1) [⟨Rect.unit (s := S4096x32) (k0_off1 i) S1024x32.size (k0_off1_inb i), k0_pay6 (k0_pay5 x1 xs0 x3 x4 x5 x6 x7)⟩])) (k0_pay1 (k0_pay7 (k0_pay5 x1 xs0 x3 x4 x5 x6 x7) x8 x9 x10 x11 x12 xs2)) x13 := by
  unfold runLast; dsimp only; sl_unfold_words
  rw [View.canon_unit_zero (S := S4096x256) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem last_out_cover (y : S1024x32.Idx) : ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).1, y ∈ pc.1.set :=
  View.cover_of_tiledL _ S1024x32.size (by sl_kernel_rfl) y
theorem last_xout_cover (y : S4096x256.Idx) : ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.1, y ∈ pc.1.set :=
  View.cover_of_tiledL _ S4096x256.size (by sl_kernel_rfl) y
theorem last_acc_cover (y : S32x256.Idx) : ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.2.1, y ∈ pc.1.set :=
  View.cover_of_tiledL _ S32x256.size (by sl_kernel_rfl) y
end Last

end Cert.KernelIdeal.Body

end
-- ==== Proof.BodyObligation.lean ====
/-
  The body obligation and the frame run.

  At every grid point the body, called on the windows' current staging buffers at what they then hold, under the
  invariant `carried`, runs without a fault to the invariant at the next point and every buffer at what the proof data
  says it leaves (FrameData). With the launch facts this gives the run of the whole program: it terminates, every
  argument array ends unchanged, and each output array ends at the blocks the points wrote back.
-/
import proofs.«132249_g48112223650413_cont_sun_m_1297_17_alg».proof.Proof.FrameData
import proofs.«132249_g48112223650413_cont_sun_m_1297_17_alg».proof.Proof.Pieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The code scratch after a point -/

/-- After the first point's store the code scratch is right on the first point's rows, whatever it held. -/
theorem codes_first (c : Dev nD) (t : Fin cfg0.N) (hz : t.val = 0) (f : scCode.view.ty.Contents (Elt F)) :
    codesOk m c t.val (scCode.view.read (Elt F) (scCode.view.writes (Elt F) f [⟨Rect.unit (s := S4096x32) (k0_off1 (grid0.coords t)) S1024x32.size (k0_off1_inb (grid0.coords t)), k0_pay6 (codeBlk m c t)⟩])) := by
  intro t' ht' p y h0 h1
  obtain rfl : t' = t := Fin.ext (by omega)
  exact View.read_writes_cons_rows_of_mem scCode.view f (k0_off1_inb _) _ [] y p (sliceOff_eq t') h0 h1

/-- After a later point's store the code scratch is right on that point's rows too: the store touches only them. -/
theorem codes_step (c : Dev nD) (t : Fin cfg0.N) (hz : t.val ≠ 0) (hw : scCode.IsWhole) (zs : Vec F S4096x32 .f32)
    (h : codesOk m c (t.val - 1) zs) :
    codesOk m c t.val (scCode.view.read (Elt F) (scCode.view.writes (Elt F) (hw.unread zs) [⟨Rect.unit (s := S4096x32) (k0_off1 (grid0.coords t)) S1024x32.size (k0_off1_inb (grid0.coords t)), k0_pay6 (codeBlk m c t)⟩])) := by
  intro t' ht' p y h0 h1
  by_cases e : t'.val = t.val
  · obtain rfl : t' = t := Fin.ext e
    exact View.read_writes_cons_rows_of_mem scCode.view _ (k0_off1_inb _) _ [] y p (sliceOff_eq t') h0 h1
  · have hp : (p 0).val < 1024 := (p 0).isLt
    rw [View.read_writes_cons_rows_of_not_mem scCode.view _ (k0_off1_inb _) _ [] y (sliceOff_eq t) (rfl : S1024x32.size (0 : Fin 2) = 1024) (by omega)]
    rw [View.writes_nil, hw.read_unread]
    exact h t' (by omega) p y h0 h1

/-- A code scratch right on the rows so far, owned, is the invariant's middle conjunct. -/
theorem codes_intro (c : Dev nD) (n : ℕ) (f : scCode.view.ty.Contents (Elt F)) (h : codesOk m c n (scCode.view.read (Elt F) f)) :
    (scCode.view.loc (c : Thread nD τ) ↦[scCode.view.set]{fullShare} f)
      ⊢ (iprop(∃ zs, ⌜codesOk m c n zs⌝ ∗ owns (c : Thread nD τ) scCode fullShare zs) : sProp 𝕄) := by
  iintro H
  iexists _; isplitr
  · ipureintro; exact h
  unfold owns; iexists _; isplitr
  · ipureintro; rfl
  iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 19200000 in
/-- The body at any point: the inputs' memrefs hold their blocks; the closed forms say which of the three runs applies; the
    invariant hands the run the scratch buffers (at anything at the first point, at what the point before left afterwards)
    and takes them back at this point's contents; the second output's buffer is handed back as found off the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [show (dats m 0 c).Φ t.succ = carried m c (t.val + 1) t.isLt from rfl, carried_succ]
  have hN : t.val < 4 := lt_of_lt_of_eq t.isLt four_points
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  rw [show (dats m 0 c).leavesExact 5 t = owns (c : Thread nD τ) (ms_5 t) fullShare ((dats m 0 c).after 5 t) from by
    unfold Dat.leavesExact; rw [live_5 t], after_5]
  rw [show (dats m 0 c).leavesExact 6 t = owns (c : Thread nD τ) (ms_6 t) fullShare ((dats m 0 c).after 6 t) from by
    unfold Dat.leavesExact; rw [live_6 t], after_6]
  rw [show (dats m 0 c).leavesExact 7 t = owns (c : Thread nD τ) (ms_7 t) fullShare ((dats m 0 c).after 7 t) from by
    unfold Dat.leavesExact; rw [live_7 t], after_7]
  rw [show (dats m 0 c).leavesExact 8 t = owns (c : Thread nD τ) (ms_8 t) fullShare ((dats m 0 c).after 8 t) from by
    unfold Dat.leavesExact; rw [live_8 t], after_8]
  rw [show (dats m 0 c).leavesExact 9 t = owns (c : Thread nD τ) (ms_9 t) fullShare ((dats m 0 c).after 9 t) from by
    unfold Dat.leavesExact; rw [live_9 t], after_9]
  rw [show (dats m 0 c).leavesExact 10 t = owns (c : Thread nD τ) (ms_10 t) fullShare ((dats m 0 c).after 10 t) from by
    unfold Dat.leavesExact; rw [live_10 t], after_10]
  rw [show (dats m 0 c).leavesExact 11 t = owns (c : Thread nD τ) (ms_11 t) fullShare ((dats m 0 c).after 11 t) from by
    unfold Dat.leavesExact; rw [live_11 t], after_11]
  rw [show (dats m 0 c).leavesExact 12 t = owns (c : Thread nD τ) (ms_12 t) fullShare ((dats m 0 c).after 12 t) from by
    unfold Dat.leavesExact; rw [live_12 t], after_12]
  rw [show (dats m 0 c).leavesExact 13 t = owns (c : Thread nD τ) (ms_13 t) fullShare ((dats m 0 c).after 13 t) from by
    unfold Dat.leavesExact; rw [live_13 t], after_13]
  rw [show (dats m 0 c).leavesExact 14 t = owns (c : Thread nD τ) (ms_14 t) fullShare ((dats m 0 c).after 14 t) from by
    unfold Dat.leavesExact; rw [live_14 t], after_14]
  rw [carried_castSucc m c t]
  by_cases h0 : t.val % 4 = 0
  · have h1 : ¬ t.val % 4 = 3 := by omega
    have hz : t.val = 0 := by omega
    rw [Dat.leavesExact_idle (dats m 0 c) 15 t ((idle_15 t).mpr h1) (Bool.eq_false_iff.mpr fun h => h1 ((flush0_15 t).mp h))]
    rw [carried_zero m c _ _ hz, launchInv_eq]
    obtain rfl : t = firstPt := Fin.ext hz
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runFirst c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, ⟨%e14, H14⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro
          exact (View.read_writes_eq_canon _ _ _ (first_sup_cover c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))).trans
            (first_sup c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))
        isplitl [HS1]
        · have hc : codesOk m c firstPt.val (scCode.view.read (Elt F) (scCode.view.writes (Elt F) es1 (runFirst c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt)).2.2.1)) := by
            rw [first_codes c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt)]
            exact codes_first m c firstPt hz es1
          iapply (codes_intro m c firstPt.val _ hc)
          iexact HS1
        unfold owns; iexists _; isplitr
        swap; · iexact HS2
        ipureintro
        exact (View.read_writes_eq_canon _ _ _ (first_acc_cover c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))).trans
          ((first_acc c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt)).trans (accAt_zero m c firstPt hz).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro
      exact (View.read_writes_eq_canon _ _ _ (first_out_cover c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))).trans
        (first_out c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))
    iexists _; iexact H15
  · have hz : t.val ≠ 0 := fun e => h0 (by rw [e])
    rw [carried_pos m c _ _ hz]
    by_cases h1 : t.val % 4 = 3
    · rw [show (dats m 0 c).leavesExact 15 t = owns (c : Thread nD τ) (ms_15 t) fullShare ((dats m 0 c).after 15 t) from by
        unfold Dat.leavesExact; rw [Bool.eq_false_iff.mpr fun h => ((idle_15 t).mp h) h1], after_15]
      iintro ⟨⟨⟨HS0, ⟨%zs, %hzs, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      isplitl [HS2]; · iexact HS2
      iintro ⟨H0, H1, H2, H3, H4, H5, H6, H7, H8, H9, H10, H11, H12, H13, ⟨%e14, H14⟩, ⟨%e15, H15⟩, HS0, HS1, ⟨%es2, HS2⟩⟩
      have hcodes := codes_step m c t hz (Memref.isWhole_whole _) zs hzs
      isplitl [HS0 HS1 HS2 Hg]
      · isplitl [HS0 HS1 HS2]
        · isplitl [HS0]
          · iexact HS0
          isplitl [HS1]
          · have hc : codesOk m c t.val (scCode.view.read (Elt F) (scCode.view.writes (Elt F) ((Memref.isWhole_whole _).unread zs) (runLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).2.2.1)) := by
              rw [last_codes c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))]
              exact hcodes
            iapply (codes_intro m c t.val _ hc)
            iexact HS1
          unfold owns; iexists _; isplitr
          swap; · iexact HS2
          ipureintro
          exact (View.read_writes_eq_canon _ _ _ (last_acc_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
            ((last_acc c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).trans (accAt_pos m c t hz).symm)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro
        exact (View.read_writes_eq_canon _ _ _ (last_out_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
          (last_out c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))
      unfold owns; iexists _; isplitr
      swap; · iexact H15
      ipureintro
      refine (View.read_writes_eq_canon _ _ _ (last_xout_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
        ((last_xout c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).trans ?_)
      have e1 := eq_codesAll_of_codesOk m c t.val (by omega) _ hcodes
      have e2 := accAt_pos m c t hz
      unfold xoutAt
      exact (congrArg (fun Z => k0_pay2 Z (accStep m c t (accAt m c (t.val - 1) (Nat.lt_of_le_of_lt (Nat.sub_le _ _) t.isLt))) (iblk m c 13 t)) e1).trans
        (congrArg (fun A => k0_pay2 (codesAll m c) A (iblk m c 13 t)) e2.symm)
    · rw [Dat.leavesExact_idle (dats m 0 c) 15 t ((idle_15 t).mpr h1) (Bool.eq_false_iff.mpr fun h => h1 ((flush0_15 t).mp h))]
      iintro ⟨⟨⟨HS0, ⟨%zs, %hzs, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runMiddle c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      isplitl [HS1]; · iexact HS1
      isplitl [HS2]; · iexact HS2
      iintro ⟨H0, H1, H2, H3, H4, H5, H6, H7, H8, H9, H10, H11, H12, H13, ⟨%e14, H14⟩, HS0, HS1, ⟨%es2, HS2⟩⟩
      have hcodes := codes_step m c t hz (Memref.isWhole_whole _) zs hzs
      isplitl [HS0 HS1 HS2 Hg]
      · isplitl [HS0 HS1 HS2]
        · isplitl [HS0]
          · iexact HS0
          isplitl [HS1]
          · have hc : codesOk m c t.val (scCode.view.read (Elt F) (scCode.view.writes (Elt F) ((Memref.isWhole_whole _).unread zs) (runMiddle c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).2.1)) := by
              rw [middle_codes c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))]
              exact hcodes
            iapply (codes_intro m c t.val _ hc)
            iexact HS1
          unfold owns; iexists _; isplitr
          swap; · iexact HS2
          ipureintro
          exact (View.read_writes_eq_canon _ _ _ (middle_acc_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
            ((middle_acc c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).trans (accAt_pos m c t hz).symm)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro
        exact (View.read_writes_eq_canon _ _ _ (middle_out_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
          (middle_out c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))
      iexists _; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem carried_in (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives the launch invariant back: the scratch contents are forgotten. -/
theorem carried_out (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 4 := four_points; omega), launchInv_eq]
  iintro ⟨⟨HS0, ⟨%zs, -, HS1⟩, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every weakly fair execution of the program terminates without a fault, every array of the pipeline ends at what the
    library computes from the proof data (an input unchanged, an output overwritten block by block by what the points wrote
    back) and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The frame claim: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  frame_of m ρ (dats m) (A_eq m) (run_main m ρ)

end Cert.KernelIdeal.Body

end
-- ==== Proof.WordBodyShared.lean ====
/-
  What the runs of the kernel body share. The body branches twice on the grid coordinate: at the first of the four
  points it computes the projected features into a scratch buffer and zeroes the accumulator, at the last it
  multiplies the codes by the accumulator into the second output. Here: the two conditions in closed form over the
  grid, where each window is idle (the second output everywhere but at the last point), the staging memrefs a point
  is called with, the three scratch buffers, and the launch invariant spelled buffer by buffer.
-/
import proofs.«132249_g48112223650413_cont_sun_m_1297_17_alg».proof.Proof.Gen.Kernel.Frame
import proofs.«132249_g48112223650413_cont_sun_m_1297_17_alg».proof.Proof.Gen.Kernel.Skeleton
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The first branch's condition, from the grid coordinate: "the coordinate is 0". -/
abbrev atFirst (i : grid0.Coords) : Prop := (Scalar.cmpi .ne (Scalar.extui (Scalar.cmpi .eq (BitVec.ofNat 32 (i 0).val) 0#32)) 0#32) = 1#1
/-- It holds at the first point only. -/
theorem atFirst_iff : ∀ t : Fin cfg0.N, atFirst (grid0.coords t) ↔ t.val % 4 = 0 :=
  (by decide +kernel : ∀ t : Fin grid0.N, atFirst (grid0.coords t) ↔ t.val % 4 = 0)

/-- The second branch's condition: "the coordinate is 3". -/
abbrev atLast (i : grid0.Coords) : Prop := k0_cond2 i = 1#1
/-- It holds at the last point only. -/
theorem atLast_iff : ∀ t : Fin cfg0.N, atLast (grid0.coords t) ↔ t.val % 4 = 3 :=
  (by decide +kernel : ∀ t : Fin grid0.N, atLast (grid0.coords t) ↔ t.val % 4 = 3)

/-- The row offset of a point's slice of the code scratch is 1024 times the point's number, its column offset 0. -/
theorem sliceOff_eq : ∀ t : Fin cfg0.N, k0_off1 (grid0.coords t) = ![1024 * t.val, 0] :=
  (by decide +kernel : ∀ t : Fin grid0.N, k0_off1 (grid0.coords t) = ![1024 * t.val, 0])

/-- Window 0 is never idle. -/
theorem live_0 : ∀ t : Fin cfg0.N, cfg0.idle 0 (grid0.coords t) = false := by decide +kernel
/-- Window 1 is never idle. -/
theorem live_1 : ∀ t : Fin cfg0.N, cfg0.idle 1 (grid0.coords t) = false := by decide +kernel
/-- Window 2 is never idle. -/
theorem live_2 : ∀ t : Fin cfg0.N, cfg0.idle 2 (grid0.coords t) = false := by decide +kernel
/-- Window 3 is never idle. -/
theorem live_3 : ∀ t : Fin cfg0.N, cfg0.idle 3 (grid0.coords t) = false := by decide +kernel
/-- Window 4 is never idle. -/
theorem live_4 : ∀ t : Fin cfg0.N, cfg0.idle 4 (grid0.coords t) = false := by decide +kernel
/-- Window 5 is never idle. -/
theorem live_5 : ∀ t : Fin cfg0.N, cfg0.idle 5 (grid0.coords t) = false := by decide +kernel
/-- Window 6 is never idle. -/
theorem live_6 : ∀ t : Fin cfg0.N, cfg0.idle 6 (grid0.coords t) = false := by decide +kernel
/-- Window 7 is never idle. -/
theorem live_7 : ∀ t : Fin cfg0.N, cfg0.idle 7 (grid0.coords t) = false := by decide +kernel
/-- Window 8 is never idle. -/
theorem live_8 : ∀ t : Fin cfg0.N, cfg0.idle 8 (grid0.coords t) = false := by decide +kernel
/-- Window 9 is never idle. -/
theorem live_9 : ∀ t : Fin cfg0.N, cfg0.idle 9 (grid0.coords t) = false := by decide +kernel
/-- Window 10 is never idle. -/
theorem live_10 : ∀ t : Fin cfg0.N, cfg0.idle 10 (grid0.coords t) = false := by decide +kernel
/-- Window 11 is never idle. -/
theorem live_11 : ∀ t : Fin cfg0.N, cfg0.idle 11 (grid0.coords t) = false := by decide +kernel
/-- Window 12 is never idle. -/
theorem live_12 : ∀ t : Fin cfg0.N, cfg0.idle 12 (grid0.coords t) = false := by decide +kernel
/-- Window 13 is never idle. -/
theorem live_13 : ∀ t : Fin cfg0.N, cfg0.idle 13 (grid0.coords t) = false := by decide +kernel
/-- Window 14 is never idle. -/
theorem live_14 : ∀ t : Fin cfg0.N, cfg0.idle 14 (grid0.coords t) = false := by decide +kernel
/-- The second output is idle exactly off the last point. -/
theorem idle_15 : ∀ t : Fin cfg0.N, cfg0.idle 15 (grid0.coords t) = true ↔ ¬ t.val % 4 = 3 :=
  (by decide +kernel : ∀ t : Fin grid0.N, cfg0.idle 15 (grid0.coords t) = true ↔ ¬ t.val % 4 = 3)

abbrev ms_0 (t : Fin cfg0.N) : Memref sig .tc .vmem S4096x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128x64 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x64 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S64x32 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x32 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S32x64 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x64 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S64x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x128 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S128x256 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x256 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S1024x32 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S4096x256 .f32 := win0_15.stage (cfg0.slots t 15)
abbrev hs_15 (t : Fin cfg0.N) : (ms_15 t).IsWhole := hstage0_15 ((cfg0.slots t 15).cast nbuf0_15)
/-- The scratch operands: the projected features, the codes of all rows, the accumulator. -/
abbrev scSup : Memref sig .tc .vmem S4096x128 .f32 := Memref.whole cc0_scratch0
abbrev scCode : Memref sig .tc .vmem S4096x32 .f32 := Memref.whole cc0_scratch1
abbrev scAcc : Memref sig .tc .vmem S32x256 .f32 := Memref.whole cc0_scratch2

/-- The launch invariant with the scratch operands as memrefs owned at some contents. -/
theorem launchInv_eq (c : Dev nD) :
    (Pipeline.ΦA spec0 c : sProp 𝕄)
      = iprop(iprop((∃ d, owns (c : Thread nD τ) scSup fullShare d) ∗ (∃ d, owns (c : Thread nD τ) scCode fullShare d) ∗ (∃ d, owns (c : Thread nD τ) scAcc fullShare d)) ∗ (∃ r, prngReg c r)) := by
  unfold Pipeline.ΦA; rw [scopedRest0_eq]; simp only [scSup, scCode, scAcc, owns_whole]; try rfl

end Cert.Kernel.Body

end
-- ==== Proof.WordBodyFirst.lean ====
/-
  The kernel body run at the FIRST grid point (the first branch taken, the second not). On whole staging memrefs —
  the fourteen inputs at their blocks, the first output and the three scratch buffers at anything — the body runs
  without a fault and hands back the inputs as they were and, for every buffer it stored into, the buffer with its
  stores written, newest first: the first output (the block's codes), the feature scratch (x · W₀, stored whole),
  the code scratch (the block's codes in its rows [0, 1024)), the accumulator (zeroed, then the first block's
  product added). The lists of stores are the witness the run finds. The second output's buffer is not touched.
-/
import proofs.«132249_g48112223650413_cont_sun_m_1297_17_alg».proof.Proof.WordBodyShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runFirst (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : atFirst i) (hc1 : ¬atLast i)
    (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) :
    Σ' (L14 : List (View.Piece (Elt F) S1024x32 .f32)) (L17 : List (View.Piece (Elt F) S4096x128 .f32)) (L18 : List (View.Piece (Elt F) S4096x32 .f32)), { L19 : List (View.Piece (Elt F) S32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0__gcn_kernel_eq_skeleton]; unfold cc0__gcn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [HS0]
    · iexists _; iexact HS0
    isplitl [HS1]
    · iexists _; iexact HS1
    iexists _; iexact HS2

end Cert.Kernel.Body

end
-- ==== Proof.WordBodyMiddle.lean ====
/-
  The kernel body run at a MIDDLE grid point (neither branch taken). The feature scratch holds what the first point
  left (`xs0`) and is only read; the code scratch holds `xs1` and gets the block's codes written into the point's
  own 1024 rows, the rest kept; the accumulator holds `xs2` and is stored whole with the block's product added. The
  first output is stored whole with the block's codes. The second output's buffer is not touched.
-/
import proofs.«132249_g48112223650413_cont_sun_m_1297_17_alg».proof.Proof.WordBodyFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runMiddle (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : ¬atFirst i) (hc1 : ¬atLast i)
    (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) (xs0 : Vec F S4096x128 .f32) (xs1 : Vec F S4096x32 .f32) (xs2 : Vec F S32x256 .f32) :
    Σ' (L14 : List (View.Piece (Elt F) S1024x32 .f32)) (L18 : List (View.Piece (Elt F) S4096x32 .f32)), { L19 : List (View.Piece (Elt F) S32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg17 fullShare xs0 ∗ owns (c : Thread nD τ) arg18 fullShare xs1 ∗ owns (c : Thread nD τ) arg19 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ owns (c : Thread nD τ) arg17 fullShare xs0 ∗ (arg18.view.loc (c : Thread nD τ) ↦[arg18.view.set]{fullShare} arg18.view.writes (Elt F) (harg18.unread xs1) L18) ∗ (∃ f, arg19.view.loc (c : Thread nD τ) ↦[arg19.view.set]{fullShare} arg19.view.writes (Elt F) f L19)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__gcn_kernel_eq_skeleton]; unfold cc0__gcn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hfs0; obtain rfl := harg18.eq_unread hfs1; obtain rfl := harg19.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [HS0]
    · iexists _; isplitr; · ipureintro; exact harg17.read_unread _
      iexact HS0
    isplitl [HS1]
    · iexact HS1
    iexists _; iexact HS2

end Cert.Kernel.Body

end
-- ==== Proof.WordBodyLast.lean ====
/-
  The kernel body run at the LAST grid point (the second branch taken). As at a middle point, and then the whole code
  scratch and the accumulator are read back and their product plus the bias row is stored, whole, into the second
  output, whose buffer may hold anything before.
-/
import proofs.«132249_g48112223650413_cont_sun_m_1297_17_alg».proof.Proof.WordBodyMiddle

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runLast (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : ¬atFirst i) (hc1 : atLast i)
    (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) (xs0 : Vec F S4096x128 .f32) (xs1 : Vec F S4096x32 .f32) (xs2 : Vec F S32x256 .f32) :
    Σ' (L14 : List (View.Piece (Elt F) S1024x32 .f32)) (L15 : List (View.Piece (Elt F) S4096x256 .f32)) (L18 : List (View.Piece (Elt F) S4096x32 .f32)), { L19 : List (View.Piece (Elt F) S32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ owns (c : Thread nD τ) arg19 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0 ∗ (arg18.view.loc (c : Thread nD τ) ↦[arg18.view.set]{fullShare} arg18.view.writes (Elt F) (harg18.unread xs1) L18) ∗ (∃ f, arg19.view.loc (c : Thread nD τ) ↦[arg19.view.set]{fullShare} arg19.view.writes (Elt F) f L19)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0__gcn_kernel_eq_skeleton]; unfold cc0__gcn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hfs0; obtain rfl := harg18.eq_unread hfs1; obtain rfl := harg19.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [H15]
    · iexists _; iexact H15
    isplitl [HS0]
    · iexists _; isplitr; · ipureintro; exact harg17.read_unread _
      iexact HS0
    isplitl [HS1]
    · iexact HS1
    iexists _; iexact HS2

end Cert.Kernel.Body

end
-- ==== Proof.WordCarried.lean ====
/-
  What the kernel leaves behind, point by point, as terms over the windows' blocks.

  The feature scratch holds, from the first point on, the product of the first point's `x` and `W₀` blocks
  (`supC`). Point `t` computes the codes of its 1024 rows from its adjacency block and that scratch (`codeBlk t`),
  stores them in the first output and into rows [1024·t, 1024·(t+1)) of the code scratch — so after point `n` the code
  scratch agrees with the blocks' codes on the rows of points 0..n (`codesOk n`) and, once every point has run, is
  `codesAll` —, and adds the block's `zᵀ · g` to the accumulator (`accStep`; `accAt n` after point `n`, from the
  zero array). The last point stores `codes · accumulator + bias` into the second output (`xoutAt`).
-/
import proofs.«132249_g48112223650413_cont_sun_m_1297_17_alg».proof.Proof.WordBodyShared
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

variable (m : (ℓ : Loc nD τ sig) → Buf (Elt F) ℓ)

theorem four_points : cfg0.N = 4 := N_0

/-- The first grid point. -/
def firstPt : Fin cfg0.N := ⟨0, by rw [four_points]; decide⟩

/-- The projected features `x · W₀` as the first point computes them. -/
def supC (c : Dev nD) : Vec F S4096x128 .f32 := k0_pay3 (iblk m c 0 firstPt) (iblk m c 2 firstPt)

/-- The codes of point `t`'s 1024 rows. -/
def codeBlk (c : Dev nD) (t : Fin cfg0.N) : Vec F S1024x32 .f32 :=
  k0_pay5 (iblk m c 1 t) (supC m c) (iblk m c 3 t) (iblk m c 4 t) (iblk m c 5 t) (iblk m c 6 t) (iblk m c 7 t)

/-- The accumulator after point `t`, if it held `prev` before: `prev` plus the block's `zᵀ · g`. -/
def accStep (c : Dev nD) (t : Fin cfg0.N) (prev : Vec F S32x256 .f32) : Vec F S32x256 .f32 :=
  k0_pay1 (k0_pay7 (codeBlk m c t) (iblk m c 8 t) (iblk m c 9 t) (iblk m c 10 t) (iblk m c 11 t) (iblk m c 12 t) prev)

/-- The accumulator after point `n`: zeroed at the first point, then one block added per point. -/
def accAt (c : Dev nD) : (n : ℕ) → n < cfg0.N → Vec F S32x256 .f32
  | 0, hn => accStep m c ⟨0, hn⟩ (k0_pay4 (F := F))
  | n + 1, hn => accStep m c ⟨n + 1, hn⟩ (accAt c n (Nat.lt_of_succ_lt hn))

theorem accAt_zero (c : Dev nD) (t : Fin cfg0.N) (hz : t.val = 0) :
    accAt m c t.val t.isLt = accStep m c t (k0_pay4 (F := F)) := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = accStep m c t (accAt m c (t.val - 1) (Nat.lt_of_le_of_lt (Nat.sub_le _ _) t.isLt)) := by
  obtain ⟨n, hn⟩ := t
  cases n with
  | zero => exact absurd rfl hz
  | succ n => rfl

/-- The code scratch `zs` agrees with the blocks' codes on the rows of the points up to `n`: row `1024·t + p`, column
    `k` holds entry `(p, k)` of point `t`'s codes. -/
def codesOk (c : Dev nD) (n : ℕ) (zs : Vec F S4096x32 .f32) : Prop :=
  ∀ t : Fin cfg0.N, t.val ≤ n → ∀ (p : S1024x32.Idx) (y : S4096x32.Idx),
    (y 0).val = 1024 * t.val + (p 0).val → (y 1).val = (p 1).val → zs y = k0_pay6 (codeBlk m c t) p

/-- The point whose block holds row `r`. -/
def pointOf (r : ℕ) (hr : r < 4096) : Fin cfg0.N := ⟨r / 1024, by rw [four_points]; omega⟩

/-- The code scratch once every point has stored its rows. -/
def codesAll (c : Dev nD) : Vec F S4096x32 .f32 := fun y =>
  k0_pay6 (codeBlk m c (pointOf (y 0).val (y 0).isLt))
    (ValueIdx.ix2 (⟨(y 0).val % 1024, Nat.mod_lt _ (by decide)⟩ : Fin 1024) (⟨(y 1).val, (y 1).isLt⟩ : Fin 32))

/-- A code scratch right on every point's rows is `codesAll`. -/
theorem eq_codesAll_of_codesOk (c : Dev nD) (n : ℕ) (hn : 3 ≤ n) (zs : Vec F S4096x32 .f32) (h : codesOk m c n zs) :
    zs = codesAll m c := by
  funext y
  have hr : (y 0).val < 4096 := (y 0).isLt
  exact h (pointOf (y 0).val hr) (by show (y 0).val / 1024 ≤ n; omega) _ y
    (by show (y 0).val = 1024 * ((y 0).val / 1024) + (y 0).val % 1024; omega) rfl

/-- What the last point stores into the second output: the codes times the accumulator, plus the bias row. -/
def xoutAt (c : Dev nD) (t : Fin cfg0.N) : Vec F S4096x256 .f32 :=
  k0_pay2 (codesAll m c) (accAt m c t.val t.isLt) (iblk m c 13 t)

end Cert.Kernel.Body

end
-- ==== Proof.WordFrameData.lean ====
/-
  The pipeline's proof data and the body obligation.

  Between points the kernel carries three scratch buffers: after point `n` the feature scratch holds `supC`, the
  accumulator `accAt n`, and the code scratch SOME contents right on the rows of points 0..n (`codesOk n`: its other rows
  still hold whatever the buffer held at launch, which nothing names). That is the invariant `carried`; before the first
  point it is the launch invariant (every scratch at anything). After the body at point `t` every input's buffer holds
  its block, the first output's buffer the point's codes, and the second output's buffer — idle until the last point,
  where it is handed back as found — the product the last point stores.
-/
import proofs.«132249_g48112223650413_cont_sun_m_1297_17_alg».proof.Proof.WordBodyLast
import proofs.«132249_g48112223650413_cont_sun_m_1297_17_alg».proof.Proof.WordCarried

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`. -/
def carried (c : Dev nD) : (n : ℕ) → n ≤ cfg0.N → sProp 𝕄
  | 0, _ => Pipeline.ΦA spec0 c
  | n + 1, hn => iprop(iprop(owns (c : Thread nD τ) scSup fullShare (supC m c) ∗ (∃ zs, ⌜codesOk m c n zs⌝ ∗ owns (c : Thread nD τ) scCode fullShare zs) ∗ owns (c : Thread nD τ) scAcc fullShare (accAt m c n hn)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scSup fullShare (supC m c) ∗ (∃ zs, ⌜codesOk m c n zs⌝ ∗ owns (c : Thread nD τ) scCode fullShare zs) ∗ owns (c : Thread nD τ) scAcc fullShare (accAt m c n hn)) ∗ (∃ r, prngReg c r)) := rfl

theorem carried_pos (c : Dev nD) (n : ℕ) (h : n ≤ cfg0.N) (hz : n ≠ 0) :
    carried m c n h = iprop(iprop(owns (c : Thread nD τ) scSup fullShare (supC m c) ∗ (∃ zs, ⌜codesOk m c (n - 1) zs⌝ ∗ owns (c : Thread nD τ) scCode fullShare zs) ∗ owns (c : Thread nD τ) scAcc fullShare (accAt m c (n - 1) (by omega))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => codeBlk m c t
    | ⟨15, _⟩ => xoutAt m c t
    | ⟨_ + 16, h⟩ => absurd h (Nat.not_lt.2 (Nat.le_add_left _ _))
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = codeBlk m c t := by dsimp only [dats]
theorem after_15 (c : Dev nD) (t : Fin cfg0.N) : (dats m 0 c).after 15 t = xoutAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

end Cert.Kernel.Body

end
-- ==== Proof.WordPieces.lean ====
/-
  The stores each run found, read as values. Every buffer the body stores whole ends at the stored payload, a pure term
  of the blocks the body loaded (a load of a buffer just stored whole reads that payload back); the code scratch gets
  one store, of the block's codes, through the point's 1024 rows. Each list of stores covers its buffer where it claims
  to, so what the buffer holds afterwards does not depend on what it held before.
-/
import proofs.«132249_g48112223650413_cont_sun_m_1297_17_alg».proof.Proof.WordBodyLast
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

theorem zero_offsets : (![0, 0] : Fin 2 → ℕ) = fun _ => 0 :=
  funext fun a => by match a with | ⟨0, _⟩ => rfl | ⟨1, _⟩ => rfl

section First
variable (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : atFirst i) (hc1 : ¬atLast i) (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32)

theorem first_out : View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1 = (k0_pay5 x1 (k0_pay3 x0 x2) x3 x4 x5 x6 x7) := by
  unfold runFirst; dsimp only; sl_unfold_words
  rw [View.canon_unit_zero (S := S1024x32) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem first_sup : View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1 = k0_pay3 x0 x2 := by
  unfold runFirst; dsimp only; sl_unfold_words
  rw [View.canon_unit_zero (S := S4096x128) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem first_codes : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.2.1 = [⟨Rect.unit (s := S4096x32) (k0_off1 i) S1024x32.size (k0_off1_inb i), k0_pay6 (k0_pay5 x1 (k0_pay3 x0 x2) x3 x4 x5 x6 x7)⟩] := by
  unfold runFirst; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem first_acc : View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.2.2.1 = k0_pay1 (k0_pay7 (k0_pay5 x1 (k0_pay3 x0 x2) x3 x4 x5 x6 x7) x8 x9 x10 x11 x12 (k0_pay4 (F := F))) := by
  unfold runFirst; dsimp only; sl_unfold_words
  rw [View.canon_cons_unit_zero (S := S32x256) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem first_out_cover (y : S1024x32.Idx) : ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1, y ∈ pc.1.set :=
  View.cover_of_tiledL _ S1024x32.size (by sl_kernel_rfl) y
theorem first_sup_cover (y : S4096x128.Idx) : ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1, y ∈ pc.1.set :=
  View.cover_of_tiledL _ S4096x128.size (by sl_kernel_rfl) y
theorem first_acc_cover (y : S32x256.Idx) : ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.2.2.1, y ∈ pc.1.set :=
  View.cover_of_tiledL _ S32x256.size (by sl_kernel_rfl) y
end First

section Middle
variable (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : ¬atFirst i) (hc1 : ¬atLast i) (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) (xs0 : Vec F S4096x128 .f32) (xs1 : Vec F S4096x32 .f32) (xs2 : Vec F S32x256 .f32)

theorem middle_out : View.canon (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).1 = (k0_pay5 x1 xs0 x3 x4 x5 x6 x7) := by
  unfold runMiddle; dsimp only; sl_unfold_words
  rw [View.canon_unit_zero (S := S1024x32) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem middle_codes : (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.1 = [⟨Rect.unit (s := S4096x32) (k0_off1 i) S1024x32.size (k0_off1_inb i), k0_pay6 (k0_pay5 x1 xs0 x3 x4 x5 x6 x7)⟩] := by
  unfold runMiddle; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem middle_acc : View.canon (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.1 = k0_pay1 (k0_pay7 (k0_pay5 x1 xs0 x3 x4 x5 x6 x7) x8 x9 x10 x11 x12 xs2) := by
  unfold runMiddle; dsimp only; sl_unfold_words
  rw [View.canon_unit_zero (S := S32x256) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem middle_out_cover (y : S1024x32.Idx) : ∃ pc ∈ (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).1, y ∈ pc.1.set :=
  View.cover_of_tiledL _ S1024x32.size (by sl_kernel_rfl) y
theorem middle_acc_cover (y : S32x256.Idx) : ∃ pc ∈ (runMiddle c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.1, y ∈ pc.1.set :=
  View.cover_of_tiledL _ S32x256.size (by sl_kernel_rfl) y
end Middle

section Last
variable (c : Dev nD) (i : grid0.Coords) (arg1 : Memref sig .tc .vmem S4096x256 .f32) (harg1 : arg1.IsWhole) (arg2 : Memref sig .tc .vmem S1024x4096 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S32x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S1024x32 .f32) (harg15 : arg15.IsWhole) (arg16 : Memref sig .tc .vmem S4096x256 .f32) (harg16 : arg16.IsWhole) (arg17 : Memref sig .tc .vmem S4096x128 .f32) (harg17 : arg17.IsWhole) (arg18 : Memref sig .tc .vmem S4096x32 .f32) (harg18 : arg18.IsWhole) (arg19 : Memref sig .tc .vmem S32x256 .f32) (harg19 : arg19.IsWhole) (hc0 : ¬atFirst i) (hc1 : atLast i) (x0 : Vec F S4096x256 .f32) (x1 : Vec F S1024x4096 .f32) (x2 : Vec F S256x128 .f32) (x3 : Vec F S1x128 .f32) (x4 : Vec F S128x64 .f32) (x5 : Vec F S1x64 .f32) (x6 : Vec F S64x32 .f32) (x7 : Vec F S1x32 .f32) (x8 : Vec F S32x64 .f32) (x9 : Vec F S1x64 .f32) (x10 : Vec F S64x128 .f32) (x11 : Vec F S1x128 .f32) (x12 : Vec F S128x256 .f32) (x13 : Vec F S1x256 .f32) (xs0 : Vec F S4096x128 .f32) (xs1 : Vec F S4096x32 .f32) (xs2 : Vec F S32x256 .f32)

theorem last_out : View.canon (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).1 = (k0_pay5 x1 xs0 x3 x4 x5 x6 x7) := by
  unfold runLast; dsimp only; sl_unfold_words
  rw [View.canon_unit_zero (S := S1024x32) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem last_codes : (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.1 = [⟨Rect.unit (s := S4096x32) (k0_off1 i) S1024x32.size (k0_off1_inb i), k0_pay6 (k0_pay5 x1 xs0 x3 x4 x5 x6 x7)⟩] := by
  unfold runLast; dsimp only; sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem last_acc : View.canon (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.2.1 = k0_pay1 (k0_pay7 (k0_pay5 x1 xs0 x3 x4 x5 x6 x7) x8 x9 x10 x11 x12 xs2) := by
  unfold runLast; dsimp only; sl_unfold_words
  rw [View.canon_unit_zero (S := S32x256) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem last_xout : View.canon (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.1
    = k0_pay2 (arg18.view.read (Elt F) (arg18.view.writes (Elt F) (harg18.unread xs1) [⟨Rect.unit (s := S4096x32) (k0_off1 i) S1024x32.size (k0_off1_inb i), k0_pay6 (k0_pay5 x1 xs0 x3 x4 x5 x6 x7)⟩])) (k0_pay1 (k0_pay7 (k0_pay5 x1 xs0 x3 x4 x5 x6 x7) x8 x9 x10 x11 x12 xs2)) x13 := by
  unfold runLast; dsimp only; sl_unfold_words
  rw [View.canon_unit_zero (S := S4096x256) zero_offsets]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S4096x256) zero_offsets, View.ld_unit_zero (S := S1024x4096) zero_offsets, View.ld_unit_zero (S := S256x128) zero_offsets, View.ld_unit_zero (S := S1x128) zero_offsets, View.ld_unit_zero (S := S128x64) zero_offsets, View.ld_unit_zero (S := S1x64) zero_offsets, View.ld_unit_zero (S := S64x32) zero_offsets, View.ld_unit_zero (S := S1x32) zero_offsets, View.ld_unit_zero (S := S32x64) zero_offsets, View.ld_unit_zero (S := S64x128) zero_offsets, View.ld_unit_zero (S := S128x256) zero_offsets, View.ld_unit_zero (S := S1x256) zero_offsets, View.ld_unit_zero (S := S1024x32) zero_offsets, View.ld_unit_zero (S := S4096x128) zero_offsets, View.ld_unit_zero (S := S4096x32) zero_offsets, View.ld_unit_zero (S := S32x256) zero_offsets, View.readCov_unit_zero (S := S32x256) _ zero_offsets, View.readCov_unit_zero (S := S4096x128) _ zero_offsets]

theorem last_out_cover (y : S1024x32.Idx) : ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).1, y ∈ pc.1.set :=
  View.cover_of_tiledL _ S1024x32.size (by sl_kernel_rfl) y
theorem last_xout_cover (y : S4096x256.Idx) : ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.1, y ∈ pc.1.set :=
  View.cover_of_tiledL _ S4096x256.size (by sl_kernel_rfl) y
theorem last_acc_cover (y : S32x256.Idx) : ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 xs2).2.2.2.1, y ∈ pc.1.set :=
  View.cover_of_tiledL _ S32x256.size (by sl_kernel_rfl) y
end Last

end Cert.Kernel.Body

end
-- ==== Proof.WordBodyObligation.lean ====
/-
  The body obligation and the frame run.

  At every grid point the body, called on the windows' current staging buffers at what they then hold, under the
  invariant `carried`, runs without a fault to the invariant at the next point and every buffer at what the proof data
  says it leaves (FrameData). With the launch facts this gives the run of the whole program: it terminates, every
  argument array ends unchanged, and each output array ends at the blocks the points wrote back.
-/
import proofs.«132249_g48112223650413_cont_sun_m_1297_17_alg».proof.Proof.WordFrameData
import proofs.«132249_g48112223650413_cont_sun_m_1297_17_alg».proof.Proof.WordPieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The code scratch after a point -/

/-- After the first point's store the code scratch is right on the first point's rows, whatever it held. -/
theorem codes_first (c : Dev nD) (t : Fin cfg0.N) (hz : t.val = 0) (f : scCode.view.ty.Contents (Elt F)) :
    codesOk m c t.val (scCode.view.read (Elt F) (scCode.view.writes (Elt F) f [⟨Rect.unit (s := S4096x32) (k0_off1 (grid0.coords t)) S1024x32.size (k0_off1_inb (grid0.coords t)), k0_pay6 (codeBlk m c t)⟩])) := by
  intro t' ht' p y h0 h1
  obtain rfl : t' = t := Fin.ext (by omega)
  exact View.read_writes_cons_rows_of_mem scCode.view f (k0_off1_inb _) _ [] y p (sliceOff_eq t') h0 h1

/-- After a later point's store the code scratch is right on that point's rows too: the store touches only them. -/
theorem codes_step (c : Dev nD) (t : Fin cfg0.N) (hz : t.val ≠ 0) (hw : scCode.IsWhole) (zs : Vec F S4096x32 .f32)
    (h : codesOk m c (t.val - 1) zs) :
    codesOk m c t.val (scCode.view.read (Elt F) (scCode.view.writes (Elt F) (hw.unread zs) [⟨Rect.unit (s := S4096x32) (k0_off1 (grid0.coords t)) S1024x32.size (k0_off1_inb (grid0.coords t)), k0_pay6 (codeBlk m c t)⟩])) := by
  intro t' ht' p y h0 h1
  by_cases e : t'.val = t.val
  · obtain rfl : t' = t := Fin.ext e
    exact View.read_writes_cons_rows_of_mem scCode.view _ (k0_off1_inb _) _ [] y p (sliceOff_eq t') h0 h1
  · have hp : (p 0).val < 1024 := (p 0).isLt
    rw [View.read_writes_cons_rows_of_not_mem scCode.view _ (k0_off1_inb _) _ [] y (sliceOff_eq t) (rfl : S1024x32.size (0 : Fin 2) = 1024) (by omega)]
    rw [View.writes_nil, hw.read_unread]
    exact h t' (by omega) p y h0 h1

/-- A code scratch right on the rows so far, owned, is the invariant's middle conjunct. -/
theorem codes_intro (c : Dev nD) (n : ℕ) (f : scCode.view.ty.Contents (Elt F)) (h : codesOk m c n (scCode.view.read (Elt F) f)) :
    (scCode.view.loc (c : Thread nD τ) ↦[scCode.view.set]{fullShare} f)
      ⊢ (iprop(∃ zs, ⌜codesOk m c n zs⌝ ∗ owns (c : Thread nD τ) scCode fullShare zs) : sProp 𝕄) := by
  iintro H
  iexists _; isplitr
  · ipureintro; exact h
  unfold owns; iexists _; isplitr
  · ipureintro; rfl
  iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 19200000 in
/-- The body at any point: the inputs' memrefs hold their blocks; the closed forms say which of the three runs applies; the
    invariant hands the run the scratch buffers (at anything at the first point, at what the point before left afterwards)
    and takes them back at this point's contents; the second output's buffer is handed back as found off the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [show (dats m 0 c).Φ t.succ = carried m c (t.val + 1) t.isLt from rfl, carried_succ]
  have hN : t.val < 4 := lt_of_lt_of_eq t.isLt four_points
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  rw [show (dats m 0 c).leavesExact 5 t = owns (c : Thread nD τ) (ms_5 t) fullShare ((dats m 0 c).after 5 t) from by
    unfold Dat.leavesExact; rw [live_5 t], after_5]
  rw [show (dats m 0 c).leavesExact 6 t = owns (c : Thread nD τ) (ms_6 t) fullShare ((dats m 0 c).after 6 t) from by
    unfold Dat.leavesExact; rw [live_6 t], after_6]
  rw [show (dats m 0 c).leavesExact 7 t = owns (c : Thread nD τ) (ms_7 t) fullShare ((dats m 0 c).after 7 t) from by
    unfold Dat.leavesExact; rw [live_7 t], after_7]
  rw [show (dats m 0 c).leavesExact 8 t = owns (c : Thread nD τ) (ms_8 t) fullShare ((dats m 0 c).after 8 t) from by
    unfold Dat.leavesExact; rw [live_8 t], after_8]
  rw [show (dats m 0 c).leavesExact 9 t = owns (c : Thread nD τ) (ms_9 t) fullShare ((dats m 0 c).after 9 t) from by
    unfold Dat.leavesExact; rw [live_9 t], after_9]
  rw [show (dats m 0 c).leavesExact 10 t = owns (c : Thread nD τ) (ms_10 t) fullShare ((dats m 0 c).after 10 t) from by
    unfold Dat.leavesExact; rw [live_10 t], after_10]
  rw [show (dats m 0 c).leavesExact 11 t = owns (c : Thread nD τ) (ms_11 t) fullShare ((dats m 0 c).after 11 t) from by
    unfold Dat.leavesExact; rw [live_11 t], after_11]
  rw [show (dats m 0 c).leavesExact 12 t = owns (c : Thread nD τ) (ms_12 t) fullShare ((dats m 0 c).after 12 t) from by
    unfold Dat.leavesExact; rw [live_12 t], after_12]
  rw [show (dats m 0 c).leavesExact 13 t = owns (c : Thread nD τ) (ms_13 t) fullShare ((dats m 0 c).after 13 t) from by
    unfold Dat.leavesExact; rw [live_13 t], after_13]
  rw [show (dats m 0 c).leavesExact 14 t = owns (c : Thread nD τ) (ms_14 t) fullShare ((dats m 0 c).after 14 t) from by
    unfold Dat.leavesExact; rw [live_14 t], after_14]
  rw [carried_castSucc m c t]
  by_cases h0 : t.val % 4 = 0
  · have h1 : ¬ t.val % 4 = 3 := by omega
    have hz : t.val = 0 := by omega
    rw [Dat.leavesExact_idle (dats m 0 c) 15 t ((idle_15 t).mpr h1) (Bool.eq_false_iff.mpr fun h => h1 ((flush0_15 t).mp h))]
    rw [carried_zero m c _ _ hz, launchInv_eq]
    obtain rfl : t = firstPt := Fin.ext hz
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runFirst c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, ⟨%e14, H14⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro
          exact (View.read_writes_eq_canon _ _ _ (first_sup_cover c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))).trans
            (first_sup c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))
        isplitl [HS1]
        · have hc : codesOk m c firstPt.val (scCode.view.read (Elt F) (scCode.view.writes (Elt F) es1 (runFirst c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt)).2.2.1)) := by
            rw [first_codes c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt)]
            exact codes_first m c firstPt hz es1
          iapply (codes_intro m c firstPt.val _ hc)
          iexact HS1
        unfold owns; iexists _; isplitr
        swap; · iexact HS2
        ipureintro
        exact (View.read_writes_eq_canon _ _ _ (first_acc_cover c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))).trans
          ((first_acc c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt)).trans (accAt_zero m c firstPt hz).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro
      exact (View.read_writes_eq_canon _ _ _ (first_out_cover c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))).trans
        (first_out c (grid0.coords firstPt) (ms_0 firstPt) (hs_0 firstPt) (ms_1 firstPt) (hs_1 firstPt) (ms_2 firstPt) (hs_2 firstPt) (ms_3 firstPt) (hs_3 firstPt) (ms_4 firstPt) (hs_4 firstPt) (ms_5 firstPt) (hs_5 firstPt) (ms_6 firstPt) (hs_6 firstPt) (ms_7 firstPt) (hs_7 firstPt) (ms_8 firstPt) (hs_8 firstPt) (ms_9 firstPt) (hs_9 firstPt) (ms_10 firstPt) (hs_10 firstPt) (ms_11 firstPt) (hs_11 firstPt) (ms_12 firstPt) (hs_12 firstPt) (ms_13 firstPt) (hs_13 firstPt) (ms_14 firstPt) (hs_14 firstPt) (ms_15 firstPt) (hs_15 firstPt) scSup (Memref.isWhole_whole _) scCode (Memref.isWhole_whole _) scAcc (Memref.isWhole_whole _) ((atFirst_iff firstPt).mpr h0) (fun h => h1 ((atLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) (iblk m c 9 firstPt) (iblk m c 10 firstPt) (iblk m c 11 firstPt) (iblk m c 12 firstPt) (iblk m c 13 firstPt))
    iexists _; iexact H15
  · have hz : t.val ≠ 0 := fun e => h0 (by rw [e])
    rw [carried_pos m c _ _ hz]
    by_cases h1 : t.val % 4 = 3
    · rw [show (dats m 0 c).leavesExact 15 t = owns (c : Thread nD τ) (ms_15 t) fullShare ((dats m 0 c).after 15 t) from by
        unfold Dat.leavesExact; rw [Bool.eq_false_iff.mpr fun h => ((idle_15 t).mp h) h1], after_15]
      iintro ⟨⟨⟨HS0, ⟨%zs, %hzs, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      isplitl [HS2]; · iexact HS2
      iintro ⟨H0, H1, H2, H3, H4, H5, H6, H7, H8, H9, H10, H11, H12, H13, ⟨%e14, H14⟩, ⟨%e15, H15⟩, HS0, HS1, ⟨%es2, HS2⟩⟩
      have hcodes := codes_step m c t hz (Memref.isWhole_whole _) zs hzs
      isplitl [HS0 HS1 HS2 Hg]
      · isplitl [HS0 HS1 HS2]
        · isplitl [HS0]
          · iexact HS0
          isplitl [HS1]
          · have hc : codesOk m c t.val (scCode.view.read (Elt F) (scCode.view.writes (Elt F) ((Memref.isWhole_whole _).unread zs) (runLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).2.2.1)) := by
              rw [last_codes c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))]
              exact hcodes
            iapply (codes_intro m c t.val _ hc)
            iexact HS1
          unfold owns; iexists _; isplitr
          swap; · iexact HS2
          ipureintro
          exact (View.read_writes_eq_canon _ _ _ (last_acc_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
            ((last_acc c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).trans (accAt_pos m c t hz).symm)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro
        exact (View.read_writes_eq_canon _ _ _ (last_out_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
          (last_out c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))
      unfold owns; iexists _; isplitr
      swap; · iexact H15
      ipureintro
      refine (View.read_writes_eq_canon _ _ _ (last_xout_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
        ((last_xout c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).trans ?_)
      have e1 := eq_codesAll_of_codesOk m c t.val (by omega) _ hcodes
      have e2 := accAt_pos m c t hz
      unfold xoutAt
      exact (congrArg (fun Z => k0_pay2 Z (accStep m c t (accAt m c (t.val - 1) (Nat.lt_of_le_of_lt (Nat.sub_le _ _) t.isLt))) (iblk m c 13 t)) e1).trans
        (congrArg (fun A => k0_pay2 (codesAll m c) A (iblk m c 13 t)) e2.symm)
    · rw [Dat.leavesExact_idle (dats m 0 c) 15 t ((idle_15 t).mpr h1) (Bool.eq_false_iff.mpr fun h => h1 ((flush0_15 t).mp h))]
      iintro ⟨⟨⟨HS0, ⟨%zs, %hzs, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runMiddle c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      isplitl [HS1]; · iexact HS1
      isplitl [HS2]; · iexact HS2
      iintro ⟨H0, H1, H2, H3, H4, H5, H6, H7, H8, H9, H10, H11, H12, H13, ⟨%e14, H14⟩, HS0, HS1, ⟨%es2, HS2⟩⟩
      have hcodes := codes_step m c t hz (Memref.isWhole_whole _) zs hzs
      isplitl [HS0 HS1 HS2 Hg]
      · isplitl [HS0 HS1 HS2]
        · isplitl [HS0]
          · iexact HS0
          isplitl [HS1]
          · have hc : codesOk m c t.val (scCode.view.read (Elt F) (scCode.view.writes (Elt F) ((Memref.isWhole_whole _).unread zs) (runMiddle c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).2.1)) := by
              rw [middle_codes c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))]
              exact hcodes
            iapply (codes_intro m c t.val _ hc)
            iexact HS1
          unfold owns; iexists _; isplitr
          swap; · iexact HS2
          ipureintro
          exact (View.read_writes_eq_canon _ _ _ (middle_acc_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
            ((middle_acc c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega))).trans (accAt_pos m c t hz).symm)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro
        exact (View.read_writes_eq_canon _ _ _ (middle_out_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))).trans
          (middle_out c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) scSup (Memref.isWhole_whole _) scCode (Memref.isWhole_whole _) scAcc (Memref.isWhole_whole _) (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (supC m c) zs (accAt m c (t.val - 1) (by omega)))
      iexists _; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem carried_in (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives the launch invariant back: the scratch contents are forgotten. -/
theorem carried_out (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 4 := four_points; omega), launchInv_eq]
  iintro ⟨⟨HS0, ⟨%zs, -, HS1⟩, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every weakly fair execution of the program terminates without a fault, every array of the pipeline ends at what the
    library computes from the proof data (an input unchanged, an output overwritten block by block by what the points wrote
    back) and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The frame claim: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  frame_of m ρ (dats m) (A_eq m) (run_main m ρ)

end Cert.Kernel.Body

end
-- ==== Proof.KernelArrays.lean ====
/-
  From the blocks the grid points wrote back to the two output arrays.

  The first output, the codes `z`, is written back at every one of the four points: point `t` writes its
  1024 × 32 block of codes to rows `1024·t … 1024·t + 1023`. The four blocks tile the 4096 × 32 array, so it
  ends holding `codesArr`: row `1024·t + p` is row `p` of point `t`'s codes. The second output is written back
  once, at the last point, and its block is the whole 4096 × 256 array: it ends holding what the last point
  stored.
-/
import proofs.«132249_g48112223650413_cont_sun_m_1297_17_alg».proof.Proof.FrameData
import Idealize.ShloMosaic.Lib.Pipeline.Value
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ) (ρ : Dev nD → PrngReg)

/-! ## The codes -/

/-- The codes of all 4096 nodes: row `1024·t + p` is row `p` of point `t`'s codes. -/
def codesArr (c : Dev nD) : S4096x32.Idx → Elt F .f32 := fun y =>
  codeBlk m c (pointOf (y 0).val (y 0).isLt)
    (ValueIdx.ix2 (⟨(y 0).val % 1024, Nat.mod_lt _ (by decide)⟩ : Fin 1024) (⟨(y 1).val, (y 1).isLt⟩ : Fin 32))

/-- `codesArr` at row `1024·t + p`, column `k` is entry `(p, k)` of point `t`'s codes. -/
theorem codesArr_apply (c : Dev nD) (t : Fin cfg0.N) (p : S1024x32.Idx) (y : S4096x32.Idx)
    (h0 : (y 0).val = 1024 * t.val + (p 0).val) (h1 : (y 1).val = (p 1).val) :
    codesArr m c y = codeBlk m c t p := by
  have hp : (p 0).val < 1024 := (p 0).isLt
  have ht : pointOf (y 0).val (y 0).isLt = t := Fin.ext (by show (y 0).val / 1024 = t.val; omega)
  unfold codesArr
  rw [ht]
  refine congrArg (codeBlk m c t) (funext fun a => ?_)
  match a with
  | ⟨0, _⟩ => exact Fin.ext (by show (y 0).val % 1024 = (p 0).val; omega)
  | ⟨1, _⟩ => exact Fin.ext h1

/-- The block of the first output that point `t` writes sits at block row `t`, block column 0. -/
theorem codeWin_index : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- What point `t` writes back to the first output is block `t` of `codesArr`. -/
theorem flushed_codes (c : Dev nD) (t : Fin cfg0.N) :
    (dats m 0 c).flushed 14 t = ((cfg0.win 14).blk t).view.read (Elt F) (codesArr m c) := by
  show (cfg0.win 14).cut (grid0.coords t) ((dats m 0 c).after 14 t) = _
  rw [after_14]
  obtain ⟨e0, e1⟩ := codeWin_index t
  funext j
  show codeBlk m c t j = codesArr m c (((cfg0.win 14).blk t).view.emb j)
  refine (codesArr_apply m c t j _ ?_ ?_).symm
  · show win0_14.index t (0 : Fin 2) * 1024 + 1 * (j 0).val = 1024 * t.val + (j 0).val
    omega
  · show win0_14.index t (1 : Fin 2) * 32 + 1 * (j 1).val = (j 1).val
    omega

/-- An index of the first output is in point `t`'s block iff each coordinate is in the block's range on its axis. -/
theorem mem_codeBlk (t : Fin cfg0.N) (i : S4096x32.Idx) :
    i ∈ ((cfg0.win 14).blk t).view.set ↔ ∀ a : Fin 2, win0_14.index t a * S1024x32.size a ≤ (i a).val ∧ (i a).val < win0_14.index t a * S1024x32.size a + S1024x32.size a := by
  show i ∈ ((View.whole main_v0_1).slice (win0_14.rect t)).set ↔ _
  rw [View.set_slice_whole, Rect.mem_set_unit]
  exact Iff.rfl

/-- Row `r` of the first output is in the block of point `r / 1024`. -/
theorem codes_cover (i : S4096x32.Idx) :
    ∃ t : Fin cfg0.N, (cfg0.win 14).flush t = true ∧ i ∈ ((cfg0.win 14).blk t).view.set := by
  have hi0 : (i 0).val < 4096 := (i 0).isLt
  have hi1 : (i 1).val < 32 := (i 1).isLt
  refine ⟨pointOf (i 0).val hi0, flush0_14 _, ?_⟩
  obtain ⟨e0, e1⟩ := codeWin_index (pointOf (i 0).val hi0)
  have ev : (pointOf (i 0).val hi0).val = (i 0).val / 1024 := rfl
  rw [mem_codeBlk]
  intro a
  match a with
  | ⟨0, _⟩ =>
    show win0_14.index (pointOf (i 0).val hi0) (0 : Fin 2) * 1024 ≤ (i 0).val ∧ (i 0).val < win0_14.index (pointOf (i 0).val hi0) (0 : Fin 2) * 1024 + 1024
    omega
  | ⟨1, _⟩ =>
    show win0_14.index (pointOf (i 0).val hi0) (1 : Fin 2) * 32 ≤ (i 1).val ∧ (i 1).val < win0_14.index (pointOf (i 0).val hi0) (1 : Fin 2) * 32 + 32
    omega

/-- After the run the first output holds `codesArr`. -/
theorem final_codes (c : Dev nD) : (dats m 0 c).arrAt 14 cfg0.N = codesArr m c :=
  (dats m 0 c).arrAt_eq_of_cover 14 (codesArr m c) (fun t _ => flushed_codes m c t) codes_cover

/-! ## The decoder's output -/

/-- The second output's one block sits at block (0, 0): it is the whole array. -/
theorem xoutWin_index : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

/-- The one write-back of the second output, at the last point `t`, writes what that point stored. -/
theorem flushed_xout (c : Dev nD) (t : Fin cfg0.N) (ht : t.val = 3) (t' : Fin cfg0.N) (hf : (cfg0.win 15).flush t' = true) :
    (dats m 0 c).flushed 15 t' = ((cfg0.win 15).blk t').view.read (Elt F) (xoutAt m c t) := by
  have h4 : t'.val < 4 := lt_of_lt_of_eq t'.isLt four_points
  have h3 : t'.val % 4 = 3 := (flush0_15 t').mp hf
  obtain rfl : t' = t := Fin.ext (by omega)
  show (cfg0.win 15).cut (grid0.coords t') ((dats m 0 c).after 15 t') = _
  rw [after_15]
  obtain ⟨e0, e1⟩ := xoutWin_index t'
  funext j
  show xoutAt m c t' j = xoutAt m c t' (((cfg0.win 15).blk t').view.emb j)
  refine congrArg (xoutAt m c t') (funext fun a => Fin.ext ?_)
  match a with
  | ⟨0, _⟩ =>
    show (j 0).val = win0_15.index t' (0 : Fin 2) * 4096 + 1 * (j 0).val
    omega
  | ⟨1, _⟩ =>
    show (j 1).val = win0_15.index t' (1 : Fin 2) * 256 + 1 * (j 1).val
    omega

/-- An index of the second output is in point `t`'s block iff each coordinate is in the block's range on its axis. -/
theorem mem_xoutBlk (t : Fin cfg0.N) (i : S4096x256.Idx) :
    i ∈ ((cfg0.win 15).blk t).view.set ↔ ∀ a : Fin 2, win0_15.index t a * S4096x256.size a ≤ (i a).val ∧ (i a).val < win0_15.index t a * S4096x256.size a + S4096x256.size a := by
  show i ∈ ((View.whole main_v0_0).slice (win0_15.rect t)).set ↔ _
  rw [View.set_slice_whole, Rect.mem_set_unit]
  exact Iff.rfl

/-- After the run the second output holds what the last point stored. -/
theorem final_xout (c : Dev nD) (t : Fin cfg0.N) (ht : t.val = 3) : (dats m 0 c).arrAt 15 cfg0.N = xoutAt m c t :=
  (dats m 0 c).arrAt_eq_of_cover 15 (xoutAt m c t) (flushed_xout m c t ht) fun i => by
    have hi0 : (i 0).val < 4096 := (i 0).isLt
    have hi1 : (i 1).val < 256 := (i 1).isLt
    refine ⟨t, (flush0_15 t).mpr (by omega), ?_⟩
    obtain ⟨e0, e1⟩ := xoutWin_index t
    rw [mem_xoutBlk]
    intro a
    match a with
    | ⟨0, _⟩ =>
      show win0_15.index t (0 : Fin 2) * 4096 ≤ (i 0).val ∧ (i 0).val < win0_15.index t (0 : Fin 2) * 4096 + 4096
      omega
    | ⟨1, _⟩ =>
      show win0_15.index t (1 : Fin 2) * 256 ≤ (i 1).val ∧ (i 1).val < win0_15.index t (1 : Fin 2) * 256 + 256
      omega

/-! ## The run, read -/

/-- A run to the pipeline's post, read at the two outputs and the fourteen arguments: the second output holds what
    the last point `t` stored, the first `codesArr`, and every argument array is as launched. -/
theorem values_of_run
    (h : θ_run defs (onTc (τ := τ) (main (F := F))) (s₀ m ρ) (Pipeline.FramePost cfgs (dats m) 0 (V m)))
    (t : Fin cfg0.N) (ht : t.val = 3) :
    θ_run defs (onTc (τ := τ) (main (F := F))) ⟨m, fun _ => 0, ρ⟩ (fun r => ∀ c : Dev nD,
      r.2.mem ((c.tc : Thread nD τ).loc main_v0_0) = xoutAt m c t
      ∧ r.2.mem ((c.tc : Thread nD τ).loc main_v0_1) = codesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 15).trans (final_xout m c t ht),
      ((h c).1 14).trans (final_codes m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).1 10).trans (((dats m 0 c).arrAt_in 10 rfl _).trans ((A_eq m c 10).trans (V_main_arg10 m c))),
      ((h c).2 main_arg11 (Pipeline.mem_restRefs_of main_arg11 (by decide) (by decide))).trans (V_main_arg11 m c),
      ((h c).1 12).trans (((dats m 0 c).arrAt_in 12 rfl _).trans ((A_eq m c 12).trans (V_main_arg12 m c))),
      ((h c).2 main_arg13 (Pipeline.mem_restRefs_of main_arg13 (by decide) (by decide))).trans (V_main_arg13 m c)⟩) h

end Cert.KernelIdeal.Body

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«132249_g48112223650413_cont_sun_m_1297_17_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.GcnRows.lean ====
/-
  A graph autoencoder, row by row, over the extended reals.

  The network treats every node (a row of the adjacency matrix) alone once the projected features
  `support = x · W₀` are known:
    hidden₁ = leaky (adj[r, ·] · support + b₀),   hidden₂ = leaky (hidden₁ · W₁₁ + b₁₁),   z[r] = hidden₂ · W₁₂ + b₁₂,
    dec₁ = leaky (z[r] · W₂₁ + b₂₁),   dec₂ = leaky (dec₁ · W₂₂ + b₂₂),   g[r] = dec₂ · W₆.
  The decoder's output is `(z · zᵀ) · g + b₆`. One program forms the 4096 × 4096 matrix `z · zᵀ` and multiplies
  it by `g` (`outWide`); the other accumulates the 32 × 256 matrix `zᵀ · g` over four blocks of 1024 rows,
  starting from zero, and multiplies `z` by it (`outNarrow`). This file only states the two; that they agree
  for finite parameters is `LibBlockReassoc`'s and `GcnFinite`'s business.
-/
import proofs.«132249_g48112223650413_cont_sun_m_1297_17_alg».proof.Proof.LibRowExtras

noncomputable section

namespace Cert.GcnRows

open Idealize.ShloMosaic Idealize.ShloMosaic.ValueIdx Cert.RowLayers

/-- An `[a, b]` array of extended reals. -/
abbrev Mat (a b : ℕ) : Type := (⟨2, ![a, b]⟩ : Shape).Idx → EReal

/-- The rectifier's threshold: the value of the f32 pattern of `0.0`. -/
def thr : EReal := Ideal.ofBits .f32 0x00000000#32

/-- The rectifier's slope below the threshold: the value of the f32 pattern both programs print for `0.01`. -/
def slope : EReal := Ideal.ofBits .f32 0x3C23D70A#32

/-- The leaky rectifier on a row, in the programs' own spelling: a select on `v ≥ z` between `v` and `s · v`. -/
def leaky {J : ℕ} (z s : EReal) (f : Fin J → EReal) : Fin J → EReal :=
  fun j => Scalar.select (Ideal.cmp .oge (f j) z) (f j) (s * f j)

theorem leaky_apply {J : ℕ} (z s : EReal) (f : Fin J → EReal) (j : Fin J) :
    leaky z s f j = if z ≤ f j then f j else s * f j := by
  unfold leaky Scalar.select Ideal.cmp
  by_cases h : z ≤ f j <;> simp [h]

/-- The network's fourteen parameters, the bias vectors as functions of their one coordinate. -/
structure Params where
  x : Mat 4096 256
  adj : Mat 4096 4096
  w0 : Mat 256 128
  b0 : Fin 128 → EReal
  w11 : Mat 128 64
  b11 : Fin 64 → EReal
  w12 : Mat 64 32
  b12 : Fin 32 → EReal
  w21 : Mat 32 64
  b21 : Fin 64 → EReal
  w22 : Mat 64 128
  b22 : Fin 128 → EReal
  w6 : Mat 128 256
  b6 : Fin 256 → EReal

/-- The parameters read off the fourteen argument arrays: the matrices as they are, the bias vectors through their one
    coordinate. -/
def paramsOf (a0 : Mat 4096 256) (a1 : Mat 4096 4096) (a2 : Mat 256 128) (a3 : (⟨1, ![128]⟩ : Shape).Idx → EReal)
    (a4 : Mat 128 64) (a5 : (⟨1, ![64]⟩ : Shape).Idx → EReal) (a6 : Mat 64 32) (a7 : (⟨1, ![32]⟩ : Shape).Idx → EReal)
    (a8 : Mat 32 64) (a9 : (⟨1, ![64]⟩ : Shape).Idx → EReal) (a10 : Mat 64 128) (a11 : (⟨1, ![128]⟩ : Shape).Idx → EReal)
    (a12 : Mat 128 256) (a13 : (⟨1, ![256]⟩ : Shape).Idx → EReal) : Params where
  x := a0
  adj := a1
  w0 := a2
  b0 := vec a3
  w11 := a4
  b11 := vec a5
  w12 := a6
  b12 := vec a7
  w21 := a8
  b21 := vec a9
  w22 := a10
  b22 := vec a11
  w6 := a12
  b6 := vec a13

variable (P : Params)

/-- The projected features `x · W₀`, as an array. -/
def support : Mat 4096 128 := fun i => ∑ k : Fin 256, P.x (ix2 (i 0) k) * P.w0 (ix2 k (i 1))

theorem support_ix2 (r : Fin 4096) (j : Fin 128) :
    support P (ix2 r j) = ∑ k : Fin 256, P.x (ix2 r k) * P.w0 (ix2 k j) := rfl

/-- The first hidden layer of node `r`. -/
def hidden1 (r : Fin 4096) : Fin 128 → EReal := leaky thr slope (dense (rowOf P.adj r) (support P) P.b0)
/-- The second hidden layer of node `r`. -/
def hidden2 (r : Fin 4096) : Fin 64 → EReal := leaky thr slope (dense (hidden1 P r) P.w11 P.b11)
/-- The code `z[r]` of node `r`. -/
def code (r : Fin 4096) : Fin 32 → EReal := dense (hidden2 P r) P.w12 P.b12
/-- The decoder's first layer on node `r`. -/
def dec1 (r : Fin 4096) : Fin 64 → EReal := leaky thr slope (dense (code P r) P.w21 P.b21)
/-- The decoder's second layer on node `r`. -/
def dec2 (r : Fin 4096) : Fin 128 → EReal := leaky thr slope (dense (dec1 P r) P.w22 P.b22)
/-- The decoded features `g[r] = dec₂ · W₆` of node `r` (no bias). -/
def feat (r : Fin 4096) : Fin 256 → EReal := fun q => ∑ k : Fin 128, dec2 P r k * P.w6 (ix2 k q)

/-- Row `p` of the `t`-th block of 1024 rows. -/
def blockRow (t : Fin 4) (p : Fin 1024) : Fin 4096 := ⟨1024 * t.val + p.val, by have := t.isLt; have := p.isLt; omega⟩

/-- Block `t`'s share of `zᵀ · g`. -/
def blockProd (t : Fin 4) (k : Fin 32) (q : Fin 256) : EReal :=
  ∑ p : Fin 1024, code P (blockRow t p) k * feat P (blockRow t p) q

/-- `zᵀ · g` accumulated block after block from the threshold's value (zero), in that order. -/
def accum (k : Fin 32) (q : Fin 256) : EReal :=
  (((thr + blockProd P 0 k q) + blockProd P 1 k q) + blockProd P 2 k q) + blockProd P 3 k q

/-- The output computed through the small matrix: `z · (zᵀ · g) + b₆`. -/
def outNarrow (r : Fin 4096) (q : Fin 256) : EReal := (∑ k : Fin 32, code P r k * accum P k q) + P.b6 q

/-- The output computed through the wide matrix: `(z · zᵀ) · g + b₆`. -/
def outWide (r : Fin 4096) (q : Fin 256) : EReal :=
  (∑ j : Fin 4096, (∑ k : Fin 32, code P r k * code P j k) * feat P j q) + P.b6 q

/-- Every parameter entry is a real number. -/
structure Params.Finite : Prop where
  x : ∀ i, P.x i ≠ ⊤ ∧ P.x i ≠ ⊥
  adj : ∀ i, P.adj i ≠ ⊤ ∧ P.adj i ≠ ⊥
  w0 : ∀ i, P.w0 i ≠ ⊤ ∧ P.w0 i ≠ ⊥
  b0 : ∀ i, P.b0 i ≠ ⊤ ∧ P.b0 i ≠ ⊥
  w11 : ∀ i, P.w11 i ≠ ⊤ ∧ P.w11 i ≠ ⊥
  b11 : ∀ i, P.b11 i ≠ ⊤ ∧ P.b11 i ≠ ⊥
  w12 : ∀ i, P.w12 i ≠ ⊤ ∧ P.w12 i ≠ ⊥
  b12 : ∀ i, P.b12 i ≠ ⊤ ∧ P.b12 i ≠ ⊥
  w21 : ∀ i, P.w21 i ≠ ⊤ ∧ P.w21 i ≠ ⊥
  b21 : ∀ i, P.b21 i ≠ ⊤ ∧ P.b21 i ≠ ⊥
  w22 : ∀ i, P.w22 i ≠ ⊤ ∧ P.w22 i ≠ ⊥
  b22 : ∀ i, P.b22 i ≠ ⊤ ∧ P.b22 i ≠ ⊥
  w6 : ∀ i, P.w6 i ≠ ⊤ ∧ P.w6 i ≠ ⊥
  b6 : ∀ i, P.b6 i ≠ ⊤ ∧ P.b6 i ≠ ⊥

end Cert.GcnRows

end
-- ==== Proof.KernelPayloads.lean ====
/-
  The arithmetic the kernel's body does between its memory operations, read entry by entry and row by row
  over the extended reals.

  Each payload of the generated skeleton is a short chain of array operations. Here every chain is read
  as the mathematics it computes: the projected features `x · W₀` as sums, the cleared accumulator as the
  rectifier's threshold (zero), a block of codes as three dense layers with two leaky rectifiers between
  them, one block's contribution `m + zᵀ · g` to the small matrix, and the final product `z · m + b₆`.
-/
import proofs.«132249_g48112223650413_cont_sun_m_1297_17_alg».proof.Proof.Gen.KernelIdeal.Skeleton
import proofs.«132249_g48112223650413_cont_sun_m_1297_17_alg».proof.Proof.GcnRows
import proofs.«132249_g48112223650413_cont_sun_m_1297_17_alg».proof.Proof.LibRowExtras
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayRows

open Idealize.ShloMosaic Idealize.ShloMosaic.ValueIdx Cert.RowLayers Cert.GcnRows Cert.KernelIdeal Cert.KernelIdeal.Gen

/-! ## Every product of the body is "rows times columns" -/

theorem rtc_x_w0 : RowsTimesCols dot_S4096x256_S256x128_S4096x128_1_0_0_1_n_n :=
  ⟨rfl, rfl, fun _ _ => rfl, fun _ _ => rfl, fun _ _ => rfl, fun _ _ => rfl⟩
theorem rtc_adj_support : RowsTimesCols dot_S1024x4096_S4096x128_S1024x128_1_0_0_1_n_n :=
  ⟨rfl, rfl, fun _ _ => rfl, fun _ _ => rfl, fun _ _ => rfl, fun _ _ => rfl⟩
theorem rtc_h1_w11 : RowsTimesCols dot_S1024x128_S128x64_S1024x64_1_0_0_1_n_n :=
  ⟨rfl, rfl, fun _ _ => rfl, fun _ _ => rfl, fun _ _ => rfl, fun _ _ => rfl⟩
theorem rtc_h2_w12 : RowsTimesCols dot_S1024x64_S64x32_S1024x32_1_0_0_1_n_n :=
  ⟨rfl, rfl, fun _ _ => rfl, fun _ _ => rfl, fun _ _ => rfl, fun _ _ => rfl⟩
theorem rtc_z_w21 : RowsTimesCols dot_S1024x32_S32x64_S1024x64_1_0_0_1_n_n :=
  ⟨rfl, rfl, fun _ _ => rfl, fun _ _ => rfl, fun _ _ => rfl, fun _ _ => rfl⟩
theorem rtc_d1_w22 : RowsTimesCols dot_S1024x64_S64x128_S1024x128_1_0_0_1_n_n :=
  ⟨rfl, rfl, fun _ _ => rfl, fun _ _ => rfl, fun _ _ => rfl, fun _ _ => rfl⟩
theorem rtc_d2_w6 : RowsTimesCols dot_S1024x128_S128x256_S1024x256_1_0_0_1_n_n :=
  ⟨rfl, rfl, fun _ _ => rfl, fun _ _ => rfl, fun _ _ => rfl, fun _ _ => rfl⟩
theorem rtc_zt_g : RowsTimesCols dot_S32x1024_S1024x256_S32x256_1_0_0_1_n_n :=
  ⟨rfl, rfl, fun _ _ => rfl, fun _ _ => rfl, fun _ _ => rfl, fun _ _ => rfl⟩
theorem rtc_z_m : RowsTimesCols dot_S4096x32_S32x256_S4096x256_1_0_0_1_n_n :=
  ⟨rfl, rfl, fun _ _ => rfl, fun _ _ => rfl, fun _ _ => rfl, fun _ _ => rfl⟩

/-! ## The payloads that are one product, a constant, or nothing at all -/

/-- The projected features: entry `(r, j)` of `x · W₀`. -/
theorem pay3_apply (x0 : Vec Ideal S4096x256 .f32) (x2 : Vec Ideal S256x128 .f32) (r : Fin 4096) (j : Fin 128) :
    k0_pay3 (F := Ideal) x0 x2 (ix2 r j) = ∑ k : Fin 256, x0 (ix2 r k) * x2 (ix2 k j) := by
  unfold k0_pay3
  rw [shapeCast_self]
  exact congrFun (rowOf_matmul_zero rtc_x_w0 none x0 x2 r) j

/-- The cleared accumulator holds the rectifier's threshold, zero, everywhere. -/
theorem pay4_apply (i : S32x256.Idx) : k0_pay4 (F := Ideal) i = GcnRows.thr := by
  unfold k0_pay4
  rw [shapeCast_self]
  rfl

/-- A cast of a block of codes to its own shape changes nothing. -/
theorem pay6_eq (z : FVec Ideal S1024x32 .f32) : k0_pay6 (F := Ideal) z = z := by
  unfold k0_pay6
  exact shapeCast_self _ _

/-- A cast of the small matrix to its own shape changes nothing. -/
theorem pay1_eq (m : FVec Ideal S32x256 .f32) : k0_pay1 (F := Ideal) m = m := by
  unfold k0_pay1
  exact shapeCast_self _ _

/-- The output: entry `(r, q)` of `z · m + b₆`. -/
theorem pay2_apply (zs : Vec Ideal S4096x32 .f32) (mm : Vec Ideal S32x256 .f32) (x13 : Vec Ideal S1x256 .f32)
    (r : Fin 4096) (q : Fin 256) :
    k0_pay2 (F := Ideal) zs mm x13 (ix2 r q) = (∑ k : Fin 32, zs (ix2 r k) * mm (ix2 k q)) + x13 (ix2 0 q) := by
  unfold k0_pay2
  rw [shapeCast_self]
  exact congrFun (rowOf_dense_device rtc_z_m none zs mm x13 broadcasts_S1x256_S4096x256 r) q

/-! ## The leaky rectifier as the body spells it, on a row -/

/-- The select on `v ≥ 0` between `v` and `0.01 · v`, read on row `p`, is the leaky rectifier of that row. -/
theorem rowOf_leaky {a b : ℕ} (v : FVec Ideal ⟨2, ![a, b]⟩ .f32) (p : Fin a) :
    rowOf (select (cmpf .oge v (broadcast ⟨2, ![a, b]⟩ (Scalar.ofBits (F := Ideal) .f32 0x00000000#32))) v
        (mulf (broadcast ⟨2, ![a, b]⟩ (Scalar.ofBits (F := Ideal) .f32 0x3C23D70A#32)) v)) p
      = leaky thr slope (rowOf v p) := rfl

/-! ## A block of codes -/

/-- Row `p` of the block's codes: three dense layers on row `p` of the adjacency block, a leaky rectifier after the
    first and after the second. -/
theorem pay5_row (x1 : Vec Ideal S1024x4096 .f32) (S : Vec Ideal S4096x128 .f32) (x3 : Vec Ideal S1x128 .f32)
    (x4 : Vec Ideal S128x64 .f32) (x5 : Vec Ideal S1x64 .f32) (x6 : Vec Ideal S64x32 .f32) (x7 : Vec Ideal S1x32 .f32)
    (p : Fin 1024) :
    rowOf (k0_pay5 (F := Ideal) x1 S x3 x4 x5 x6 x7) p
      = dense (leaky thr slope (dense (leaky thr slope (dense (rowOf x1 p) S (rowOf x3 0))) x4 (rowOf x5 0))) x6 (rowOf x7 0) := by
  unfold k0_pay5
  rw [shapeCast_self, shapeCast_self, shapeCast_self]
  rw [rowOf_dense_device rtc_h2_w12, rowOf_leaky, rowOf_dense_device rtc_h1_w11, rowOf_leaky,
    rowOf_dense_device rtc_adj_support]

/-! ## One block's contribution to the small matrix -/

/-- Entry `(k, q)` of `m + zᵀ · g` for one block of 1024 codes `z`: the decoder runs on each code (two dense layers,
    each followed by a leaky rectifier, then the product with `W₆`), and the 1024 rows are contracted against the
    transposed block. -/
theorem pay7_apply (z : FVec Ideal S1024x32 .f32) (x8 : Vec Ideal S32x64 .f32) (x9 : Vec Ideal S1x64 .f32)
    (x10 : Vec Ideal S64x128 .f32) (x11 : Vec Ideal S1x128 .f32) (x12 : Vec Ideal S128x256 .f32)
    (mprev : Vec Ideal S32x256 .f32) (k : Fin 32) (q : Fin 256) :
    k0_pay7 (F := Ideal) z x8 x9 x10 x11 x12 mprev (ix2 k q)
      = mprev (ix2 k q) + ∑ p : Fin 1024, z (ix2 p k) *
          (∑ j : Fin 128, (leaky thr slope (dense (leaky thr slope (dense (rowOf z p) x8 (rowOf x9 0))) x10 (rowOf x11 0))) j
            * x12 (ix2 j q)) := by
  unfold k0_pay7
  rw [shapeCast_self, shapeCast_self, addf_apply]
  refine congrArg (mprev (ix2 k q) + ·) ?_
  refine (congrFun (rowOf_matmul_zero rtc_zt_g none _ _ k) q).trans ?_
  beta_reduce
  refine Finset.sum_congr rfl fun p _ => ?_
  rw [rowOf_apply, transpose_ix2_apply]
  refine congrArg (z (ix2 p k) * ·) ?_
  refine (congrFun (rowOf_matmul_zero rtc_d2_w6 none _ x12 p) q).trans ?_
  rw [rowOf_leaky, rowOf_dense_device rtc_d1_w22, rowOf_leaky, rowOf_dense_device rtc_z_w21]

end Cert.KernelIdeal.PayRows

end
-- ==== Proof.KernelWindows.lean ====
/-
  Every input window's block, read off the argument arrays.

  The features, the six weight matrices and the six bias rows are whole arrays that every grid point sees at the
  origin; the bias rows are the host's view of a vector [n] as a one-row matrix [1, n]; and the adjacency window at
  point t is rows 1024·t … 1024·t + 1023 of the adjacency matrix. A block's coordinate along an axis is always
  (the window's block index) × (the block's extent) + (the coordinate inside the block), and the block indices are
  decided once over the four grid points.
-/
import proofs.«132249_g48112223650413_cont_sun_m_1297_17_alg».proof.Proof.Carried
import proofs.«132249_g48112223650413_cont_sun_m_1297_17_alg».proof.Proof.KernelPayloads

set_option maxRecDepth 16384

noncomputable section

namespace Cert.KernelIdeal.KerValue

open Idealize.ShloMosaic Idealize.ShloMosaic.TcCoe Idealize.ShloMosaic.ValueIdx Idealize.SL.Sem Idealize.ShloMosaic.Tactic
open Cert.RowLayers Cert.GcnRows Cert.KernelIdeal Cert.KernelIdeal.Gen Cert.KernelIdeal.Body Cert.KernelIdeal.PayRows

variable (m : (ℓ : Loc nD τ sig) → Buf (Elt Ideal) ℓ) (c : Dev nD)

/-- The network's parameters read off the fourteen argument arrays as launched. -/
abbrev argParams : Params :=
  paramsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))

/-- A grid point as one of the network's four blocks of rows. -/
abbrev blockNo (t : Fin cfg0.N) : Fin 4 := ⟨t.val, Nat.lt_of_lt_of_eq t.isLt four_points⟩

/-- An index of a two-axis array is its two coordinates. -/
theorem idx2_ext {a b : ℕ} (i j : (⟨2, ![a, b]⟩ : Shape).Idx) (h0 : (i 0).val = (j 0).val) (h1 : (i 1).val = (j 1).val) :
    i = j :=
  funext fun ax => Fin.ext (match ax with | ⟨0, _⟩ => h0 | ⟨1, _⟩ => h1)

/-! ## Where each window's index map puts a point's block -/

theorem idx_0 : ∀ t : Fin cfg0.N, win0_0.index t (0 : Fin 2) = 0 ∧ win0_0.index t (1 : Fin 2) = 0 :=
  (by decide +kernel : ∀ t : Fin grid0.N, _)
/-- The adjacency window moves down one block of rows per point. -/
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)

/-! ## The features, the adjacency rows and the weight matrices -/

/-- Window 0 is the feature matrix `x`, whole, at every point. -/
theorem blk0_eq (t : Fin cfg0.N) :
    (iblk m c 0 t : Vec Ideal S4096x256 .f32) = m ((c.tc : Thread nD τ).loc main_arg0) := by
  funext y
  obtain ⟨e0, e1⟩ := idx_0 t
  unfold iblk
  rw [View.read_apply]
  show V m c main_arg0 _ = m ((c.tc : Thread nD τ).loc main_arg0) y
  rw [V_main_arg0]
  exact congrArg _ (idx2_ext _ _ (by show win0_0.index t 0 * 4096 + 1 * (y 0).val = (y 0).val; rw [e0]; omega)
    (by show win0_0.index t 1 * 256 + 1 * (y 1).val = (y 1).val; rw [e1]; omega))

/-- Window 1 at point `t` is rows `1024·t … 1024·t + 1023` of the adjacency matrix. -/
theorem blk1_apply (t : Fin cfg0.N) (p : Fin 1024) (k : Fin 4096) :
    (iblk m c 1 t : Vec Ideal S1024x4096 .f32) (ix2 p k)
      = m ((c.tc : Thread nD τ).loc main_arg1) (ix2 (blockRow (blockNo t) p) k) := by
  obtain ⟨e0, e1⟩ := idx_1 t
  unfold iblk
  rw [View.read_apply]
  show V m c main_arg1 _ = m ((c.tc : Thread nD τ).loc main_arg1) _
  rw [V_main_arg1]
  exact congrArg _ (idx2_ext _ _ (by show win0_1.index t 0 * 1024 + 1 * p.val = 1024 * t.val + p.val; rw [e0]; omega)
    (by show win0_1.index t 1 * 4096 + 1 * k.val = k.val; rw [e1]; omega))

/-- Row `p` of window 1 at point `t` is row `1024·t + p` of the adjacency matrix. -/
theorem blk1_row (t : Fin cfg0.N) (p : Fin 1024) :
    rowOf (iblk m c 1 t : Vec Ideal S1024x4096 .f32) p
      = rowOf (m ((c.tc : Thread nD τ).loc main_arg1) : Mat 4096 4096) (blockRow (blockNo t) p) :=
  funext fun k => blk1_apply m c t p k

/-- Window 2 is `W₀`. -/
theorem blk2_eq (t : Fin cfg0.N) :
    (iblk m c 2 t : Vec Ideal S256x128 .f32) = m ((c.tc : Thread nD τ).loc main_arg2) := by
  funext y
  obtain ⟨e0, e1⟩ := idx_2 t
  unfold iblk
  rw [View.read_apply]
  show V m c main_arg2 _ = m ((c.tc : Thread nD τ).loc main_arg2) y
  rw [V_main_arg2]
  exact congrArg _ (idx2_ext _ _ (by show win0_2.index t 0 * 256 + 1 * (y 0).val = (y 0).val; rw [e0]; omega)
    (by show win0_2.index t 1 * 128 + 1 * (y 1).val = (y 1).val; rw [e1]; omega))

/-- Window 4 is `W₁₁`. -/
theorem blk4_eq (t : Fin cfg0.N) :
    (iblk m c 4 t : Vec Ideal S128x64 .f32) = m ((c.tc : Thread nD τ).loc main_arg4) := by
  funext y
  obtain ⟨e0, e1⟩ := idx_4 t
  unfold iblk
  rw [View.read_apply]
  show V m c main_arg4 _ = m ((c.tc : Thread nD τ).loc main_arg4) y
  rw [V_main_arg4]
  exact congrArg _ (idx2_ext _ _ (by show win0_4.index t 0 * 128 + 1 * (y 0).val = (y 0).val; rw [e0]; omega)
    (by show win0_4.index t 1 * 64 + 1 * (y 1).val = (y 1).val; rw [e1]; omega))

/-- Window 6 is `W₁₂`. -/
theorem blk6_eq (t : Fin cfg0.N) :
    (iblk m c 6 t : Vec Ideal S64x32 .f32) = m ((c.tc : Thread nD τ).loc main_arg6) := by
  funext y
  obtain ⟨e0, e1⟩ := idx_6 t
  unfold iblk
  rw [View.read_apply]
  show V m c main_arg6 _ = m ((c.tc : Thread nD τ).loc main_arg6) y
  rw [V_main_arg6]
  exact congrArg _ (idx2_ext _ _ (by show win0_6.index t 0 * 64 + 1 * (y 0).val = (y 0).val; rw [e0]; omega)
    (by show win0_6.index t 1 * 32 + 1 * (y 1).val = (y 1).val; rw [e1]; omega))

/-- Window 8 is `W₂₁`. -/
theorem blk8_eq (t : Fin cfg0.N) :
    (iblk m c 8 t : Vec Ideal S32x64 .f32) = m ((c.tc : Thread nD τ).loc main_arg8) := by
  funext y
  obtain ⟨e0, e1⟩ := idx_8 t
  unfold iblk
  rw [View.read_apply]
  show V m c main_arg8 _ = m ((c.tc : Thread nD τ).loc main_arg8) y
  rw [V_main_arg8]
  exact congrArg _ (idx2_ext _ _ (by show win0_8.index t 0 * 32 + 1 * (y 0).val = (y 0).val; rw [e0]; omega)
    (by show win0_8.index t 1 * 64 + 1 * (y 1).val = (y 1).val; rw [e1]; omega))

/-- Window 10 is `W₂₂`. -/
theorem blk10_eq (t : Fin cfg0.N) :
    (iblk m c 10 t : Vec Ideal S64x128 .f32) = m ((c.tc : Thread nD τ).loc main_arg10) := by
  funext y
  obtain ⟨e0, e1⟩ := idx_10 t
  unfold iblk
  rw [View.read_apply]
  show V m c main_arg10 _ = m ((c.tc : Thread nD τ).loc main_arg10) y
  rw [V_main_arg10]
  exact congrArg _ (idx2_ext _ _ (by show win0_10.index t 0 * 64 + 1 * (y 0).val = (y 0).val; rw [e0]; omega)
    (by show win0_10.index t 1 * 128 + 1 * (y 1).val = (y 1).val; rw [e1]; omega))

/-- Window 12 is `W₆`. -/
theorem blk12_eq (t : Fin cfg0.N) :
    (iblk m c 12 t : Vec Ideal S128x256 .f32) = m ((c.tc : Thread nD τ).loc main_arg12) := by
  funext y
  obtain ⟨e0, e1⟩ := idx_12 t
  unfold iblk
  rw [View.read_apply]
  show V m c main_arg12 _ = m ((c.tc : Thread nD τ).loc main_arg12) y
  rw [V_main_arg12]
  exact congrArg _ (idx2_ext _ _ (by show win0_12.index t 0 * 128 + 1 * (y 0).val = (y 0).val; rw [e0]; omega)
    (by show win0_12.index t 1 * 256 + 1 * (y 1).val = (y 1).val; rw [e1]; omega))

/-! ## The bias rows: a vector the host views as a one-row matrix -/

theorem host_b0 : (V m c main_call0_v0 : S1x128.Idx → EReal)
    = shapeCast S1x128 (m ((c.tc : Thread nD τ).loc main_arg3)) shapeCasts_S128_S1x128 := by
  dsimp only [Gen.V, Gen.hostOps0]
  after_results
  rfl
theorem host_b11 : (V m c main_call0_v1 : S1x64.Idx → EReal)
    = shapeCast S1x64 (m ((c.tc : Thread nD τ).loc main_arg5)) shapeCasts_S64_S1x64 := by
  dsimp only [Gen.V, Gen.hostOps0]
  after_results
  rfl
theorem host_b12 : (V m c main_call0_v2 : S1x32.Idx → EReal)
    = shapeCast S1x32 (m ((c.tc : Thread nD τ).loc main_arg7)) shapeCasts_S32_S1x32 := by
  dsimp only [Gen.V, Gen.hostOps0]
  after_results
  rfl
theorem host_b21 : (V m c main_call0_v3 : S1x64.Idx → EReal)
    = shapeCast S1x64 (m ((c.tc : Thread nD τ).loc main_arg9)) shapeCasts_S64_S1x64 := by
  dsimp only [Gen.V, Gen.hostOps0]
  after_results
  rfl
theorem host_b22 : (V m c main_call0_v4 : S1x128.Idx → EReal)
    = shapeCast S1x128 (m ((c.tc : Thread nD τ).loc main_arg11)) shapeCasts_S128_S1x128 := by
  dsimp only [Gen.V, Gen.hostOps0]
  after_results
  rfl
theorem host_b6 : (V m c main_call0_v5 : S1x256.Idx → EReal)
    = shapeCast S1x256 (m ((c.tc : Thread nD τ).loc main_arg13)) shapeCasts_S256_S1x256 := by
  dsimp only [Gen.V, Gen.hostOps0]
  after_results
  rfl

/-- Window 3's one row is `b₀`. -/
theorem blk3_row (t : Fin cfg0.N) :
    rowOf (iblk m c 3 t : Vec Ideal S1x128 .f32) 0 = vec (m ((c.tc : Thread nD τ).loc main_arg3)) := by
  have e : (iblk m c 3 t : Vec Ideal S1x128 .f32) = V m c main_call0_v0 := by
    funext y
    obtain ⟨e0, e1⟩ := idx_3 t
    unfold iblk
    rw [View.read_apply]
    show V m c main_call0_v0 _ = V m c main_call0_v0 y
    exact congrArg _ (idx2_ext _ _ (by show win0_3.index t 0 * 1 + 1 * (y 0).val = (y 0).val; rw [e0]; omega)
      (by show win0_3.index t 1 * 128 + 1 * (y 1).val = (y 1).val; rw [e1]; omega))
  rw [e, host_b0]
  exact rowOf_shapeCast_lead _ _

/-- Window 5's one row is `b₁₁`. -/
theorem blk5_row (t : Fin cfg0.N) :
    rowOf (iblk m c 5 t : Vec Ideal S1x64 .f32) 0 = vec (m ((c.tc : Thread nD τ).loc main_arg5)) := by
  have e : (iblk m c 5 t : Vec Ideal S1x64 .f32) = V m c main_call0_v1 := by
    funext y
    obtain ⟨e0, e1⟩ := idx_5 t
    unfold iblk
    rw [View.read_apply]
    show V m c main_call0_v1 _ = V m c main_call0_v1 y
    exact congrArg _ (idx2_ext _ _ (by show win0_5.index t 0 * 1 + 1 * (y 0).val = (y 0).val; rw [e0]; omega)
      (by show win0_5.index t 1 * 64 + 1 * (y 1).val = (y 1).val; rw [e1]; omega))
  rw [e, host_b11]
  exact rowOf_shapeCast_lead _ _

/-- Window 7's one row is `b₁₂`. -/
theorem blk7_row (t : Fin cfg0.N) :
    rowOf (iblk m c 7 t : Vec Ideal S1x32 .f32) 0 = vec (m ((c.tc : Thread nD τ).loc main_arg7)) := by
  have e : (iblk m c 7 t : Vec Ideal S1x32 .f32) = V m c main_call0_v2 := by
    funext y
    obtain ⟨e0, e1⟩ := idx_7 t
    unfold iblk
    rw [View.read_apply]
    show V m c main_call0_v2 _ = V m c main_call0_v2 y
    exact congrArg _ (idx2_ext _ _ (by show win0_7.index t 0 * 1 + 1 * (y 0).val = (y 0).val; rw [e0]; omega)
      (by show win0_7.index t 1 * 32 + 1 * (y 1).val = (y 1).val; rw [e1]; omega))
  rw [e, host_b12]
  exact rowOf_shapeCast_lead _ _

/-- Window 9's one row is `b₂₁`. -/
theorem blk9_row (t : Fin cfg0.N) :
    rowOf (iblk m c 9 t : Vec Ideal S1x64 .f32) 0 = vec (m ((c.tc : Thread nD τ).loc main_arg9)) := by
  have e : (iblk m c 9 t : Vec Ideal S1x64 .f32) = V m c main_call0_v3 := by
    funext y
    obtain ⟨e0, e1⟩ := idx_9 t
    unfold iblk
    rw [View.read_apply]
    show V m c main_call0_v3 _ = V m c main_call0_v3 y
    exact congrArg _ (idx2_ext _ _ (by show win0_9.index t 0 * 1 + 1 * (y 0).val = (y 0).val; rw [e0]; omega)
      (by show win0_9.index t 1 * 64 + 1 * (y 1).val = (y 1).val; rw [e1]; omega))
  rw [e, host_b21]
  exact rowOf_shapeCast_lead _ _

/-- Window 11's one row is `b₂₂`. -/
theorem blk11_row (t : Fin cfg0.N) :
    rowOf (iblk m c 11 t : Vec Ideal S1x128 .f32) 0 = vec (m ((c.tc : Thread nD τ).loc main_arg11)) := by
  have e : (iblk m c 11 t : Vec Ideal S1x128 .f32) = V m c main_call0_v4 := by
    funext y
    obtain ⟨e0, e1⟩ := idx_11 t
    unfold iblk
    rw [View.read_apply]
    show V m c main_call0_v4 _ = V m c main_call0_v4 y
    exact congrArg _ (idx2_ext _ _ (by show win0_11.index t 0 * 1 + 1 * (y 0).val = (y 0).val; rw [e0]; omega)
      (by show win0_11.index t 1 * 128 + 1 * (y 1).val = (y 1).val; rw [e1]; omega))
  rw [e, host_b22]
  exact rowOf_shapeCast_lead _ _

/-- Window 13's one row is `b₆`. -/
theorem blk13_row (t : Fin cfg0.N) :
    rowOf (iblk m c 13 t : Vec Ideal S1x256 .f32) 0 = vec (m ((c.tc : Thread nD τ).loc main_arg13)) := by
  have e : (iblk m c 13 t : Vec Ideal S1x256 .f32) = V m c main_call0_v5 := by
    funext y
    obtain ⟨e0, e1⟩ := idx_13 t
    unfold iblk
    rw [View.read_apply]
    show V m c main_call0_v5 _ = V m c main_call0_v5 y
    exact congrArg _ (idx2_ext _ _ (by show win0_13.index t 0 * 1 + 1 * (y 0).val = (y 0).val; rw [e0]; omega)
      (by show win0_13.index t 1 * 256 + 1 * (y 1).val = (y 1).val; rw [e1]; omega))
  rw [e, host_b6]
  exact rowOf_shapeCast_lead _ _

end Cert.KernelIdeal.KerValue

end
-- ==== Proof.KernelValue.lean ====
/-
  What the kernel leaves, in the network's terms.

  With every window's block read off the argument arrays, the feature scratch is the network's `support`, point t's
  block of codes is the network's `code` on rows 1024·t … 1024·t + 1023, the code scratch once every point has run
  is `code` on all 4096 rows, each point adds its block's share `blockProd` of `zᵀ · g` to the accumulator — so
  after the last point the accumulator is `accum` —, and what the last point stores is `outNarrow`.
-/
import proofs.«132249_g48112223650413_cont_sun_m_1297_17_alg».proof.Proof.KernelWindows

set_option maxRecDepth 16384

noncomputable section

namespace Cert.KernelIdeal.KerValue

open Idealize.ShloMosaic Idealize.ShloMosaic.TcCoe Idealize.ShloMosaic.ValueIdx Idealize.SL.Sem
open Cert.RowLayers Cert.GcnRows Cert.KernelIdeal Cert.KernelIdeal.Gen Cert.KernelIdeal.Body Cert.KernelIdeal.PayRows

variable (m : (ℓ : Loc nD τ sig) → Buf (Elt Ideal) ℓ) (c : Dev nD)

/-! ## The projected features -/

/-- The feature scratch at `(r, j)` is `x · W₀` there. -/
theorem supC_apply (r : Fin 4096) (j : Fin 128) :
    supC m c (ix2 r j) = support (argParams m c) (ix2 r j) := by
  rw [support_ix2]
  show k0_pay3 (F := Ideal) (iblk m c 0 firstPt) (iblk m c 2 firstPt) (ix2 r j) = _
  refine (pay3_apply _ _ r j).trans (Finset.sum_congr rfl fun k _ => ?_)
  exact congrArg₂ (· * ·) (congrFun (blk0_eq m c firstPt) _) (congrFun (blk2_eq m c firstPt) _)

/-- The feature scratch is the network's `support`. -/
theorem supC_eq : (supC m c : Mat 4096 128) = support (argParams m c) :=
  funext fun i => by
    obtain ⟨r, j, rfl⟩ : ∃ (r : Fin 4096) (j : Fin 128), i = ix2 r j := ⟨i 0, i 1, eq_ix2 i⟩
    exact supC_apply m c r j

/-! ## The codes -/

/-- Row `p` of point `t`'s codes is the code of node `1024·t + p`. -/
theorem codeBlk_row (t : Fin cfg0.N) (p : Fin 1024) :
    rowOf (codeBlk m c t : Vec Ideal S1024x32 .f32) p = code (argParams m c) (blockRow (blockNo t) p) := by
  show rowOf (k0_pay5 (F := Ideal) (iblk m c 1 t) (supC m c) (iblk m c 3 t) (iblk m c 4 t) (iblk m c 5 t) (iblk m c 6 t)
    (iblk m c 7 t)) p = _
  refine (pay5_row _ _ _ _ _ _ _ p).trans ?_
  rw [blk1_row, supC_eq, blk3_row, blk4_eq, blk5_row, blk6_eq, blk7_row]
  rfl

/-- The code scratch once every point has run: entry `(r, k)` is the code of node `r` at `k`. -/
theorem codesAll_apply (r : Fin 4096) (k : Fin 32) :
    codesAll m c (ix2 r k) = code (argParams m c) r k := by
  show k0_pay6 (F := Ideal) (codeBlk m c (pointOf r.val r.isLt))
    (ix2 (⟨r.val % 1024, Nat.mod_lt _ (by decide)⟩ : Fin 1024) (⟨k.val, k.isLt⟩ : Fin 32)) = _
  rw [pay6_eq]
  have h := congrFun (codeBlk_row m c (pointOf r.val r.isLt) ⟨r.val % 1024, Nat.mod_lt _ (by decide)⟩) k
  refine h.trans ?_
  have e : blockRow (blockNo (pointOf r.val r.isLt)) ⟨r.val % 1024, Nat.mod_lt _ (by decide)⟩ = r :=
    Fin.ext (by show 1024 * (r.val / 1024) + r.val % 1024 = r.val; omega)
  rw [e]

/-! ## The accumulator -/

/-- One point's step: the accumulator gains the block's share of `zᵀ · g`. -/
theorem accStep_apply (t : Fin cfg0.N) (prev : Vec Ideal S32x256 .f32) (k : Fin 32) (q : Fin 256) :
    accStep m c t prev (ix2 k q) = prev (ix2 k q) + blockProd (argParams m c) (blockNo t) k q := by
  show k0_pay1 (F := Ideal) (k0_pay7 (codeBlk m c t) (iblk m c 8 t) (iblk m c 9 t) (iblk m c 10 t) (iblk m c 11 t)
    (iblk m c 12 t) prev) (ix2 k q) = _
  rw [pay1_eq]
  refine (pay7_apply _ _ _ _ _ _ prev k q).trans (congrArg (prev (ix2 k q) + ·) (Finset.sum_congr rfl fun p _ => ?_))
  rw [← rowOf_apply (codeBlk m c t) p k, codeBlk_row, blk8_eq, blk9_row, blk10_eq, blk11_row, blk12_eq]
  rfl

/-- After the last point the accumulator is `zᵀ · g` summed block after block from zero. -/
theorem accAt_last (h3 : 3 < cfg0.N) (k : Fin 32) (q : Fin 256) :
    accAt m c 3 h3 (ix2 k q) = accum (argParams m c) k q := by
  show accStep m c ⟨3, _⟩ (accStep m c ⟨2, _⟩ (accStep m c ⟨1, _⟩ (accStep m c ⟨0, _⟩ (k0_pay4 (F := Ideal))))) (ix2 k q) = _
  rw [accStep_apply, accStep_apply, accStep_apply, accStep_apply, pay4_apply]
  rfl

/-! ## The output -/

/-- What the last point stores: `z · (zᵀ · g) + b₆`. -/
theorem xoutAt_last (t : Fin cfg0.N) (ht : t.val = 3) (r : Fin 4096) (q : Fin 256) :
    xoutAt m c t (ix2 r q) = outNarrow (argParams m c) r q := by
  obtain ⟨n, hn⟩ := t
  obtain rfl : n = 3 := ht
  show k0_pay2 (F := Ideal) (codesAll m c) (accAt m c 3 hn) (iblk m c 13 ⟨3, hn⟩) (ix2 r q) = _
  refine (pay2_apply _ _ _ r q).trans ?_
  have hb : (iblk m c 13 ⟨3, hn⟩ : Vec Ideal S1x256 .f32) (ix2 0 q) = (argParams m c).b6 q :=
    congrFun (blk13_row m c ⟨3, hn⟩) q
  rw [hb]
  refine congrArg (· + (argParams m c).b6 q) (Finset.sum_congr rfl fun k _ => ?_)
  rw [codesAll_apply, accAt_last]

end Cert.KernelIdeal.KerValue

end
-- ==== Proof.RefStages.lean ====
/-
  The reference program computes the wide formula.

  The reference is a chain of array operations on [4096, n] arrays. Read row by row, every dense layer
  (a product with a weight matrix plus a bias vector broadcast down the rows) sends row r of its input to
  `dense` of that row, and the compare / multiply / select chain after it is the leaky rectifier of the row.
  So row r of the code array is `code P r`; the product of the code array with its own transpose has the
  entry ∑ k, z[r, k] · z[j, k] at (r, j); and the last product and bias give `outWide P r`.
-/
import proofs.«132249_g48112223650413_cont_sun_m_1297_17_alg».proof.Proof.Gen.ReferenceIdeal.Read
import proofs.«132249_g48112223650413_cont_sun_m_1297_17_alg».proof.Proof.GcnRows

noncomputable section

namespace Cert.ReferenceIdeal.RefValue

open Cert.ReferenceIdeal Cert.ReferenceIdeal.Gen Cert.ReferenceIdeal.Read Idealize.ShloMosaic Idealize.ShloMosaic.ValueIdx
  Cert.RowLayers Cert.GcnRows

/-! ## The nine products all say "rows times columns" -/

theorem rtc_v0 : RowsTimesCols dot_S4096x256_S256x128_S4096x128_1_0_0_1_n_n :=
  ⟨rfl, rfl, lhs_main_v0_0, lhs_main_v0_1, rhs_main_v0_0, rhs_main_v0_1⟩
theorem rtc_v1 : RowsTimesCols dot_S4096x4096_S4096x128_S4096x128_1_0_0_1_n_n :=
  ⟨rfl, rfl, lhs_main_v1_0, lhs_main_v1_1, rhs_main_v1_0, rhs_main_v1_1⟩
theorem rtc_v10 : RowsTimesCols dot_S4096x128_S128x64_S4096x64_1_0_0_1_n_n :=
  ⟨rfl, rfl, lhs_main_v10_0, lhs_main_v10_1, rhs_main_v10_0, rhs_main_v10_1⟩
theorem rtc_v19 : RowsTimesCols dot_S4096x64_S64x32_S4096x32_1_0_0_1_n_n :=
  ⟨rfl, rfl, lhs_main_v19_0, lhs_main_v19_1, rhs_main_v19_0, rhs_main_v19_1⟩
theorem rtc_v24 : RowsTimesCols dot_S4096x32_S32x4096_S4096x4096_1_0_0_1_n_n :=
  ⟨rfl, rfl, lhs_main_v24_0, lhs_main_v24_1, rhs_main_v24_0, rhs_main_v24_1⟩
theorem rtc_v25 : RowsTimesCols dot_S4096x32_S32x64_S4096x64_1_0_0_1_n_n :=
  ⟨rfl, rfl, lhs_main_v25_0, lhs_main_v25_1, rhs_main_v25_0, rhs_main_v25_1⟩
theorem rtc_v34 : RowsTimesCols dot_S4096x64_S64x128_S4096x128_1_0_0_1_n_n :=
  ⟨rfl, rfl, lhs_main_v34_0, lhs_main_v34_1, rhs_main_v34_0, rhs_main_v34_1⟩
theorem rtc_v43 : RowsTimesCols dot_S4096x128_S128x256_S4096x256_1_0_0_1_n_n :=
  ⟨rfl, rfl, lhs_main_v43_0, lhs_main_v43_1, rhs_main_v43_0, rhs_main_v43_1⟩
theorem rtc_v44 : RowsTimesCols dot_S4096x4096_S4096x256_S4096x256_1_0_0_1_n_n :=
  ⟨rfl, rfl, lhs_main_v44_0, lhs_main_v44_1, rhs_main_v44_0, rhs_main_v44_1⟩

/-! ## The rectifier as the reference spells it -/

/-- A select on `v ≥ 0` between `v` and `0.01 · v`, the two constants splat over the array, is the leaky rectifier
    of each row. -/
theorem rowOf_leaky {a b : ℕ} (v : FVec Ideal ⟨2, ![a, b]⟩ .f32) (h0 : S_.BroadcastsInDim ⟨2, ![a, b]⟩ ![]) (p : Fin a) :
    rowOf (select (cmpf .oge v (broadcastInDim ⟨2, ![a, b]⟩ ![] h0 (constant (F := Ideal) S_ .f32 0x00000000#32))) v
        (mulf (broadcastInDim ⟨2, ![a, b]⟩ ![] h0 (constant (F := Ideal) S_ .f32 0x3C23D70A#32)) v)) p
      = leaky thr slope (rowOf v p) := rfl

section Stages

variable (x0 : (⟨S4096x256, .f32⟩ : BufTy).Contents (Elt Ideal)) (x1 : (⟨S4096x4096, .f32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S64x32, .f32⟩ : BufTy).Contents (Elt Ideal)) (x7 : (⟨S32, .f32⟩ : BufTy).Contents (Elt Ideal))
  (x8 : (⟨S32x64, .f32⟩ : BufTy).Contents (Elt Ideal)) (x9 : (⟨S64, .f32⟩ : BufTy).Contents (Elt Ideal))
  (x10 : (⟨S64x128, .f32⟩ : BufTy).Contents (Elt Ideal)) (x11 : (⟨S128, .f32⟩ : BufTy).Contents (Elt Ideal))
  (x12 : (⟨S128x256, .f32⟩ : BufTy).Contents (Elt Ideal)) (x13 : (⟨S256, .f32⟩ : BufTy).Contents (Elt Ideal))

local notation "P" => paramsOf x0 x1 x2 x3 x4 x5 x6 x7 x8 x9 x10 x11 x12 x13

/-! ## The encoder, row by row -/

/-- The first product is the projected features. -/
theorem v0_eq : val_main_v0 (F := Ideal) x0 x2 = support P := by
  funext i
  obtain ⟨r, q, rfl⟩ : ∃ r q, i = ix2 r q := ⟨i 0, i 1, eq_ix2 i⟩
  exact congrFun (rowOf_dotGeneral rtc_v0 none x0 x2 r) q

/-- Row `r` of the first dense layer. -/
theorem row_v4 (r : Fin 4096) :
    rowOf (val_main_v4 (F := Ideal) x0 x1 x2 x3) r = dense (rowOf x1 r) (support P) (vec x3) := by
  rw [← v0_eq]
  exact rowOf_dense_host rtc_v1 none x1 (val_main_v0 (F := Ideal) x0 x2) x3 bcast_S128_S1x128_1 bcast_S1x128_S4096x128_0_1 r

/-- Row `r` after the first rectifier is the first hidden layer of node `r`. -/
theorem row_v9 (r : Fin 4096) : rowOf (val_main_v9 (F := Ideal) x0 x1 x2 x3) r = hidden1 P r := by
  have h := rowOf_leaky (val_main_v4 (F := Ideal) x0 x1 x2 x3) bcast_S_S4096x128 r
  rw [row_v4 x0 x1 x2 x3 x4 x5 x6 x7 x8 x9 x10 x11 x12 x13] at h
  exact h

/-- Row `r` of the second dense layer. -/
theorem row_v13 (r : Fin 4096) :
    rowOf (val_main_v13 (F := Ideal) x0 x1 x2 x3 x4 x5) r = dense (hidden1 P r) x4 (vec x5) := by
  rw [← row_v9 x0 x1 x2 x3 x4 x5 x6 x7 x8 x9 x10 x11 x12 x13]
  exact rowOf_dense_host rtc_v10 none (val_main_v9 (F := Ideal) x0 x1 x2 x3) x4 x5 bcast_S64_S1x64_1 bcast_S1x64_S4096x64_0_1 r

/-- Row `r` after the second rectifier is the second hidden layer of node `r`. -/
theorem row_v18 (r : Fin 4096) : rowOf (val_main_v18 (F := Ideal) x0 x1 x2 x3 x4 x5) r = hidden2 P r := by
  have h := rowOf_leaky (val_main_v13 (F := Ideal) x0 x1 x2 x3 x4 x5) bcast_S_S4096x64 r
  rw [row_v13 x0 x1 x2 x3 x4 x5 x6 x7 x8 x9 x10 x11 x12 x13] at h
  exact h

/-- Row `r` of the code array is the code of node `r`. -/
theorem row_v22 (r : Fin 4096) : rowOf (val_main_v22 (F := Ideal) x0 x1 x2 x3 x4 x5 x6 x7) r = code P r := by
  have h := rowOf_dense_host (φ₁ := .f32) (φ₂ := .f32) rtc_v19 none (val_main_v18 (F := Ideal) x0 x1 x2 x3 x4 x5) x6 x7 bcast_S32_S1x32_1 bcast_S1x32_S4096x32_0_1 r
  rw [row_v18 x0 x1 x2 x3 x4 x5 x6 x7 x8 x9 x10 x11 x12 x13] at h
  exact h

/-- The code array, entry by entry. -/
theorem v22_eq : val_main_v22 (F := Ideal) x0 x1 x2 x3 x4 x5 x6 x7 = fun i => code P (i 0) (i 1) :=
  funext fun i => (apply_eq_rowOf _ i).trans (congrFun (row_v22 x0 x1 x2 x3 x4 x5 x6 x7 x8 x9 x10 x11 x12 x13 (i 0)) (i 1))

/-! ## The wide matrix `z · zᵀ` -/

/-- The transposed code array at `(k, j)` is the code of node `j` at `k`. -/
theorem entry_v23 (k : Fin 32) (j : Fin 4096) : val_main_v23 (F := Ideal) x0 x1 x2 x3 x4 x5 x6 x7 (ix2 k j) = code P j k :=
  (transpose_ix2_apply (val_main_v22 (F := Ideal) x0 x1 x2 x3 x4 x5 x6 x7) transposes_S4096x32_S32x4096_1_0 k j).trans
    (congrFun (row_v22 x0 x1 x2 x3 x4 x5 x6 x7 x8 x9 x10 x11 x12 x13 j) k)

/-- Row `r` of `z · zᵀ`: the inner products of node `r`'s code with every node's. -/
theorem row_v24 (r : Fin 4096) :
    rowOf (val_main_v24 (F := Ideal) x0 x1 x2 x3 x4 x5 x6 x7) r = fun j => ∑ k : Fin 32, code P r k * code P j k := by
  have h := rowOf_dotGeneral (φ₁ := .f32) (φ₂ := .f32) rtc_v24 none (val_main_v22 (F := Ideal) x0 x1 x2 x3 x4 x5 x6 x7) (val_main_v23 (F := Ideal) x0 x1 x2 x3 x4 x5 x6 x7) r
  rw [row_v22 x0 x1 x2 x3 x4 x5 x6 x7 x8 x9 x10 x11 x12 x13] at h
  refine h.trans (funext fun j => Finset.sum_congr rfl fun k _ => ?_)
  rw [entry_v23 x0 x1 x2 x3 x4 x5 x6 x7 x8 x9 x10 x11 x12 x13]

/-! ## The decoder, row by row -/

/-- Row `r` of the decoder's first dense layer. -/
theorem row_v28 (r : Fin 4096) :
    rowOf (val_main_v28 (F := Ideal) x0 x1 x2 x3 x4 x5 x6 x7 x8 x9) r = dense (code P r) x8 (vec x9) := by
  rw [← row_v22 x0 x1 x2 x3 x4 x5 x6 x7 x8 x9 x10 x11 x12 x13]
  exact rowOf_dense_host rtc_v25 none (val_main_v22 (F := Ideal) x0 x1 x2 x3 x4 x5 x6 x7) x8 x9 bcast_S64_S1x64_1 bcast_S1x64_S4096x64_0_1 r

/-- Row `r` after the decoder's first rectifier. -/
theorem row_v33 (r : Fin 4096) : rowOf (val_main_v33 (F := Ideal) x0 x1 x2 x3 x4 x5 x6 x7 x8 x9) r = dec1 P r := by
  have h := rowOf_leaky (val_main_v28 (F := Ideal) x0 x1 x2 x3 x4 x5 x6 x7 x8 x9) bcast_S_S4096x64 r
  rw [row_v28 x0 x1 x2 x3 x4 x5 x6 x7 x8 x9 x10 x11 x12 x13] at h
  exact h

/-- Row `r` of the decoder's second dense layer. -/
theorem row_v37 (r : Fin 4096) :
    rowOf (val_main_v37 (F := Ideal) x0 x1 x2 x3 x4 x5 x6 x7 x8 x9 x10 x11) r = dense (dec1 P r) x10 (vec x11) := by
  rw [← row_v33 x0 x1 x2 x3 x4 x5 x6 x7 x8 x9 x10 x11 x12 x13]
  exact rowOf_dense_host rtc_v34 none (val_main_v33 (F := Ideal) x0 x1 x2 x3 x4 x5 x6 x7 x8 x9) x10 x11 bcast_S128_S1x128_1 bcast_S1x128_S4096x128_0_1 r

/-- Row `r` after the decoder's second rectifier. -/
theorem row_v42 (r : Fin 4096) : rowOf (val_main_v42 (F := Ideal) x0 x1 x2 x3 x4 x5 x6 x7 x8 x9 x10 x11) r = dec2 P r := by
  have h := rowOf_leaky (val_main_v37 (F := Ideal) x0 x1 x2 x3 x4 x5 x6 x7 x8 x9 x10 x11) bcast_S_S4096x128 r
  rw [row_v37 x0 x1 x2 x3 x4 x5 x6 x7 x8 x9 x10 x11 x12 x13] at h
  exact h

/-- The decoded features at `(j, q)`. -/
theorem entry_v43 (j : Fin 4096) (q : Fin 256) :
    val_main_v43 (F := Ideal) x0 x1 x2 x3 x4 x5 x6 x7 x8 x9 x10 x11 x12 (ix2 j q) = feat P j q := by
  have h := rowOf_dotGeneral (φ₁ := .f32) (φ₂ := .f32) rtc_v43 none (val_main_v42 (F := Ideal) x0 x1 x2 x3 x4 x5 x6 x7 x8 x9 x10 x11) x12 j
  rw [row_v42 x0 x1 x2 x3 x4 x5 x6 x7 x8 x9 x10 x11 x12 x13] at h
  exact congrFun h q

/-! ## The output -/

/-- Row `r` of the output is the wide formula. -/
theorem row_v47 (r : Fin 4096) :
    rowOf (val_main_v47 (F := Ideal) x0 x1 x2 x3 x4 x5 x6 x7 x8 x9 x10 x11 x12 x13) r = outWide P r := by
  have h := rowOf_dense_host (φ₁ := .f32) (φ₂ := .f32) rtc_v44 none (val_main_v24 (F := Ideal) x0 x1 x2 x3 x4 x5 x6 x7)
    (val_main_v43 (F := Ideal) x0 x1 x2 x3 x4 x5 x6 x7 x8 x9 x10 x11 x12) x13 bcast_S256_S1x256_1 bcast_S1x256_S4096x256_0_1 r
  rw [row_v24 x0 x1 x2 x3 x4 x5 x6 x7 x8 x9 x10 x11 x12 x13] at h
  refine h.trans (funext fun q => ?_)
  show (∑ j : Fin 4096, (∑ k : Fin 32, code P r k * code P j k) * val_main_v43 (F := Ideal) x0 x1 x2 x3 x4 x5 x6 x7 x8 x9 x10 x11 x12 (ix2 j q)) + vec x13 q = outWide P r q
  simp only [entry_v43 x0 x1 x2 x3 x4 x5 x6 x7 x8 x9 x10 x11 x12 x13]
  rfl

/-- The output array, entry by entry. -/
theorem v47_eq : val_main_v47 (F := Ideal) x0 x1 x2 x3 x4 x5 x6 x7 x8 x9 x10 x11 x12 x13 = fun i => outWide P (i 0) (i 1) :=
  funext fun i => (apply_eq_rowOf _ i).trans (congrFun (row_v47 x0 x1 x2 x3 x4 x5 x6 x7 x8 x9 x10 x11 x12 x13 (i 0)) (i 1))

end Stages

/-! ## The run's two results -/

section Results
open Idealize.ShloMosaic.TcCoe Idealize.SL.Sem Idealize.ShloMosaic.StableHlo

/-- The code array the reference's run leaves is the network's code, node by node. -/
theorem ref_code (m : (ℓ : Loc nD τ sig) → Buf (Elt Ideal) ℓ) (c : Dev nD) :
    Cert.ReferenceIdeal.Value.res_main_v22 (F := Ideal) m c
      = fun i : S4096x32.Idx => code (paramsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1) :=
  (val_main_v22_eq (F := Ideal) m c).trans (v22_eq _ _ _ _ _ _ _ _ _ _ _ _ _ _)

/-- The output array the reference's run leaves is the wide formula `(z · zᵀ) · g + b₆`, entry by entry. -/
theorem ref_out (m : (ℓ : Loc nD τ sig) → Buf (Elt Ideal) ℓ) (c : Dev nD) :
    Cert.ReferenceIdeal.Value.res_main_v47 (F := Ideal) m c
      = fun i : S4096x256.Idx => outWide (paramsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1) :=
  (val_main_v47_eq (F := Ideal) m c).trans (v47_eq _ _ _ _ _ _ _ _ _ _ _ _ _ _)

end Results

end Cert.ReferenceIdeal.RefValue

end
-- ==== Proof.LibBlockReassoc.lean ====
/-
  Re-association of a product of three matrices whose middle dimension is cut into four blocks, over the
  extended reals.

  For matrices `z` (`n × K`) and `g` (`n × Q`) the entry `(r, q)` of `(z · zᵀ) · g` is
  `∑ j, (∑ k, z r k * z j k) * g j q`, and the same entry of `z · (zᵀ · g)` is `∑ k, z r k * (∑ j, z j k * g j q)`.
  Over the real numbers the two agree: both are the sum of `z r k * z j k * g j q` over all pairs `(j, k)`.
  When the `n` rows are listed in four blocks of `B` rows by a bijection `row : Fin 4 → Fin B → Fin n`, the
  inner sum over `j` is moreover the sum of the four block sums `S t k q = ∑ p, z (row t p) k * g (row t p) q`,
  taken here in the order `(((0 + S 0) + S 1) + S 2) + S 3`.

  Over the extended reals multiplication does not distribute over addition in general (`⊤ + ⊥ = ⊥`), so the
  statement asks every entry of `z` and `g` to be finite (neither `⊤` nor `⊥`). Finite extended reals are
  coercions of real numbers, the coercion commutes with finite sums and with products, and the law is then
  the one over `ℝ`.
-/
import Idealize.ShloMosaic.PureOps.Ideal

namespace Cert.BlockReassoc

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A function into the extended reals with only finite values is the coercion of a real function. -/
theorem exists_real_of_finite {ι κ : Type*} (f : ι → κ → EReal) (hf : ∀ i k, f i k ≠ ⊤ ∧ f i k ≠ ⊥) :
    ∃ fr : ι → κ → ℝ, f = fun i k => (fr i k : EReal) :=
  ⟨fun i k => (f i k).toReal, funext fun i => funext fun k => (EReal.coe_toReal (hf i k).1 (hf i k).2).symm⟩

section Real
variable {n B K Q : ℕ} (zr : Fin n → Fin K → ℝ) (gr : Fin n → Fin Q → ℝ)

/-- One block, over `ℝ`: the rows `ρ p` of `(z · zᵀ) · g` summed, against `z` times the block's share of `zᵀ · g`. -/
theorem real_block (ρ : Fin B → Fin n) (r : Fin n) (q : Fin Q) :
    ∑ p : Fin B, (∑ k : Fin K, zr r k * zr (ρ p) k) * gr (ρ p) q
      = ∑ k : Fin K, zr r k * ∑ p : Fin B, zr (ρ p) k * gr (ρ p) q := by
  simp only [Finset.sum_mul, Finset.mul_sum]
  rw [Finset.sum_comm]
  refine Finset.sum_congr rfl fun k _ => Finset.sum_congr rfl fun p _ => ?_
  ring

/-- The law over `ℝ`. -/
theorem real_four_blocks (row : Fin 4 → Fin B → Fin n)
    (hrow : Function.Bijective (fun tp : Fin 4 × Fin B => row tp.1 tp.2)) (r : Fin n) (q : Fin Q) :
    ∑ j : Fin n, (∑ k : Fin K, zr r k * zr j k) * gr j q
      = ∑ k : Fin K, zr r k *
          ((((0 + ∑ p : Fin B, zr (row 0 p) k * gr (row 0 p) q) + ∑ p : Fin B, zr (row 1 p) k * gr (row 1 p) q)
              + ∑ p : Fin B, zr (row 2 p) k * gr (row 2 p) q) + ∑ p : Fin B, zr (row 3 p) k * gr (row 3 p) q) := by
  rw [← hrow.sum_comp (fun j => (∑ k : Fin K, zr r k * zr j k) * gr j q), Fintype.sum_prod_type, Fin.sum_univ_four]
  simp only [real_block, zero_add, mul_add, Finset.sum_add_distrib]

end Real

/-- **Four-block re-association over the extended reals.** For finite `z` and `g` and rows listed in four blocks by
    a bijection `row`, entry `(r, q)` of `(z · zᵀ) · g` is entry `(r, q)` of `z` times the four block shares of
    `zᵀ · g` added up from zero in the order of the blocks. -/
theorem four_blocks {n B K Q : ℕ} (z : Fin n → Fin K → EReal) (g : Fin n → Fin Q → EReal)
    (hz : ∀ j k, z j k ≠ ⊤ ∧ z j k ≠ ⊥) (hg : ∀ j q, g j q ≠ ⊤ ∧ g j q ≠ ⊥)
    (row : Fin 4 → Fin B → Fin n) (hrow : Function.Bijective (fun tp : Fin 4 × Fin B => row tp.1 tp.2))
    (r : Fin n) (q : Fin Q) :
    ∑ j : Fin n, (∑ k : Fin K, z r k * z j k) * g j q
      = ∑ k : Fin K, z r k *
          ((((0 + ∑ p : Fin B, z (row 0 p) k * g (row 0 p) q) + ∑ p : Fin B, z (row 1 p) k * g (row 1 p) q)
              + ∑ p : Fin B, z (row 2 p) k * g (row 2 p) q) + ∑ p : Fin B, z (row 3 p) k * g (row 3 p) q) := by
  obtain ⟨zr, rfl⟩ := exists_real_of_finite z hz
  obtain ⟨gr, rfl⟩ := exists_real_of_finite g hg
  simp only [← EReal.coe_zero, ← EReal.coe_mul, ← coe_sum, ← EReal.coe_add]
  exact congrArg _ (real_four_blocks zr gr row hrow r q)

end Cert.BlockReassoc
-- ==== Proof.GcnFinite.lean ====
/-
  Finite parameters give finite layers, and for finite layers the two arrangements of the decoder's output agree.

  Every layer of the network is built from its inputs by finite sums of products, additions of a bias, and a
  leaky rectifier whose slope is a real number; each of these keeps extended reals finite (neither `⊤` nor `⊥`).
  So when all fourteen parameter arrays are finite, so are the code `z` and the decoded features `g`, and the
  four-block re-association of `(z · zᵀ) · g` into `z · (zᵀ · g)` applies.
-/
import proofs.«132249_g48112223650413_cont_sun_m_1297_17_alg».proof.Proof.GcnRows
import proofs.«132249_g48112223650413_cont_sun_m_1297_17_alg».proof.Proof.LibBlockReassoc

noncomputable section

namespace Cert.GcnFinite

open Idealize.ShloMosaic Idealize.ShloMosaic.ValueIdx Cert.RowLayers Cert.GcnRows

/-! ## Finite extended reals are closed under the network's operations -/

/-- An extended real that is neither `⊤` nor `⊥`. -/
def IsFinite (x : EReal) : Prop := x ≠ ⊤ ∧ x ≠ ⊥

theorem isFinite_coe (r : ℝ) : IsFinite (r : EReal) := ⟨EReal.coe_ne_top r, EReal.coe_ne_bot r⟩

theorem IsFinite.exists_real {x : EReal} (h : IsFinite x) : ∃ r : ℝ, x = r :=
  ⟨x.toReal, (EReal.coe_toReal h.1 h.2).symm⟩

theorem IsFinite.mul {x y : EReal} (hx : IsFinite x) (hy : IsFinite y) : IsFinite (x * y) := by
  obtain ⟨a, rfl⟩ := hx.exists_real
  obtain ⟨b, rfl⟩ := hy.exists_real
  rw [← EReal.coe_mul]; exact isFinite_coe _

theorem IsFinite.add {x y : EReal} (hx : IsFinite x) (hy : IsFinite y) : IsFinite (x + y) := by
  obtain ⟨a, rfl⟩ := hx.exists_real
  obtain ⟨b, rfl⟩ := hy.exists_real
  rw [← EReal.coe_add]; exact isFinite_coe _

theorem isFinite_sum {ι : Type*} (s : Finset ι) (f : ι → EReal) (hf : ∀ i ∈ s, IsFinite (f i)) :
    IsFinite (∑ i ∈ s, f i) := by
  classical
  induction s using Finset.induction_on with
  | empty => rw [Finset.sum_empty, ← EReal.coe_zero]; exact isFinite_coe 0
  | insert a s ha ih =>
    rw [Finset.sum_insert ha]
    exact (hf a (Finset.mem_insert_self a s)).add (ih fun i hi => hf i (Finset.mem_insert_of_mem hi))

/-- A dense layer of a finite row with finite weights and a finite bias is finite. -/
theorem isFinite_dense {K J : ℕ} (h : Fin K → EReal) (w : (⟨2, ![K, J]⟩ : Shape).Idx → EReal) (b : Fin J → EReal)
    (hh : ∀ k, IsFinite (h k)) (hw : ∀ i, IsFinite (w i)) (hb : ∀ j, IsFinite (b j)) (j : Fin J) :
    IsFinite (dense h w b j) :=
  (isFinite_sum _ _ fun k _ => (hh k).mul (hw _)).add (hb j)

/-- The rectifier's slope is a real number. -/
theorem isFinite_slope : IsFinite GcnRows.slope := by
  unfold GcnRows.slope
  simp [Ideal.ofBits, Ideal.ieee, IsFinite, -EReal.coe_mul]

/-- The leaky rectifier keeps a finite row finite. -/
theorem isFinite_leaky {J : ℕ} (f : Fin J → EReal) (hf : ∀ j, IsFinite (f j)) (j : Fin J) :
    IsFinite (leaky thr GcnRows.slope f j) := by
  rw [leaky_apply]
  split_ifs
  · exact hf j
  · exact isFinite_slope.mul (hf j)

/-! ## The layers -/

section Layers
variable {P : Params} (hP : P.Finite)
include hP

theorem isFinite_support (i : (⟨2, ![4096, 128]⟩ : Shape).Idx) : IsFinite (support P i) :=
  isFinite_sum _ _ fun _ _ => IsFinite.mul (hP.x _) (hP.w0 _)

theorem isFinite_hidden1 (r : Fin 4096) (j : Fin 128) : IsFinite (hidden1 P r j) :=
  isFinite_leaky _ (isFinite_dense _ _ _ (fun _ => hP.adj _) (isFinite_support hP) hP.b0) j

theorem isFinite_hidden2 (r : Fin 4096) (j : Fin 64) : IsFinite (hidden2 P r j) :=
  isFinite_leaky _ (isFinite_dense _ _ _ (isFinite_hidden1 hP r) hP.w11 hP.b11) j

theorem isFinite_code (r : Fin 4096) (j : Fin 32) : IsFinite (code P r j) :=
  isFinite_dense _ _ _ (isFinite_hidden2 hP r) hP.w12 hP.b12 j

theorem isFinite_dec1 (r : Fin 4096) (j : Fin 64) : IsFinite (dec1 P r j) :=
  isFinite_leaky _ (isFinite_dense _ _ _ (isFinite_code hP r) hP.w21 hP.b21) j

theorem isFinite_dec2 (r : Fin 4096) (j : Fin 128) : IsFinite (dec2 P r j) :=
  isFinite_leaky _ (isFinite_dense _ _ _ (isFinite_dec1 hP r) hP.w22 hP.b22) j

theorem isFinite_feat (r : Fin 4096) (q : Fin 256) : IsFinite (feat P r q) :=
  isFinite_sum _ _ fun _ _ => IsFinite.mul (isFinite_dec2 hP r _) (hP.w6 _)

end Layers

/-! ## The two arrangements agree -/

/-- The four blocks of 1024 consecutive rows list every row exactly once. -/
theorem blockRow_bijective : Function.Bijective (fun tp : Fin 4 × Fin 1024 => blockRow tp.1 tp.2) := by
  rw [Fintype.bijective_iff_injective_and_card]
  refine ⟨?_, by simp⟩
  rintro ⟨t, p⟩ ⟨t', p'⟩ h
  have hv : 1024 * t.val + p.val = 1024 * t'.val + p'.val := congrArg Fin.val h
  have := p.isLt; have := p'.isLt
  have ht : t = t' := Fin.ext (by omega)
  have hp : p = p' := Fin.ext (by omega)
  rw [ht, hp]

/-- For finite parameters, the output computed through the accumulated `zᵀ · g` is the output computed through
    `z · zᵀ`. -/
theorem outNarrow_eq_outWide {P : Params} (hP : P.Finite) (r : Fin 4096) (q : Fin 256) :
    outNarrow P r q = outWide P r q := by
  unfold outNarrow outWide accum blockProd
  rw [show thr = 0 from Ideal.ofBits_zero_f32]
  exact congrArg (· + P.b6 q)
    (Cert.BlockReassoc.four_blocks (code P) (feat P) (isFinite_code hP) (isFinite_feat hP) blockRow
      blockRow_bijective r q).symm

end Cert.GcnFinite

end
-- ==== Proof.FiniteParams.lean ====
/-
  The precondition makes every parameter a real number.

  The precondition is the conjunction, over the fourteen argument arrays, of "every entry `x` has `|x| < +∞`",
  each conjunct written as an `and`-reduction of the entrywise comparison down to a single bit. A reduction by
  `and` that comes out `1` saw `1` at every entry, and for an extended real `x` the comparison
  `max x (-x) < ⊤` holds exactly when `x` is neither `⊤` nor `⊥`. So under the precondition every entry of
  every parameter array is finite.
-/
import Idealize.ShloMosaic.Lib.ReduceAll
import Idealize.ShloMosaic.Lib.ValueIdx
import proofs.«132249_g48112223650413_cont_sun_m_1297_17_alg».proof.Defs
import proofs.«132249_g48112223650413_cont_sun_m_1297_17_alg».proof.Proof.GcnFinite

noncomputable section

namespace Cert.FiniteParams

open Idealize.ShloMosaic Idealize.ShloMosaic.ValueIdx Cert.Pre_finite_inputs

/-- A rank-0 array has one index. -/
instance : Subsingleton S_.Idx := ⟨fun a b => funext fun d => d.elim0⟩

/-- For an extended real `x`, `|x| < +∞` (the absolute value as `max x (-x)`, the bound as the f32 pattern of
    `+∞`) says `x` is neither `⊤` nor `⊥`. -/
theorem finite_of_abs_lt_inf (x : EReal)
    (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨EReal.coe_ne_top r, EReal.coe_ne_bot r⟩

/-- One conjunct of the precondition: if the `and`-reduction of `|x| < +∞` over all of `x` is `1`, every entry of
    `x` is finite. -/
theorem all_finite {s : Shape} {axes : List (Fin s.rank)} (x : FVec Ideal s .f32)
    (bc : S_.BroadcastsInDim s (![] : Fin 0 → Fin s.rank)) (h : s.ReducesTo axes S_) (hu : 0 < S_.numel)
    (e : Host.reduce IntOp.andi
          (cmpf .olt (Host.absf x) (broadcastInDim s ![] bc (constant (F := Ideal) S_ .f32 0x7F800000#32)))
          (constantI S_ 1 1#1) h hu ix0 = 1#1)
    (i : s.Idx) : x i ≠ ⊤ ∧ x i ≠ ⊥ :=
  finite_of_abs_lt_inf (x i) (Host.reduce_andi_all _ _ h hu ix0 e i)

/-- **The precondition gives finite parameters.** If the fourteen `and`-reductions of `|x| < +∞`, and-ed together, are
    `1`, then every entry of every parameter array is neither `⊤` nor `⊥`. -/
theorem paramsOf_finite [Facts]
    (a0 : FVec Ideal S4096x256 .f32) (a1 : FVec Ideal S4096x4096 .f32) (a2 : FVec Ideal S256x128 .f32) (a3 : FVec Ideal S128 .f32)
    (a4 : FVec Ideal S128x64 .f32) (a5 : FVec Ideal S64 .f32) (a6 : FVec Ideal S64x32 .f32) (a7 : FVec Ideal S32 .f32)
    (a8 : FVec Ideal S32x64 .f32) (a9 : FVec Ideal S64 .f32) (a10 : FVec Ideal S64x128 .f32) (a11 : FVec Ideal S128 .f32)
    (a12 : FVec Ideal S128x256 .f32) (a13 : FVec Ideal S256 .f32)
    (h : fn (F := Ideal) a0 a1 a2 a3 a4 a5 a6 a7 a8 a9 a10 a11 a12 a13 = fun _ => 1#1) :
    (Cert.GcnRows.paramsOf a0 a1 a2 a3 a4 a5 a6 a7 a8 a9 a10 a11 a12 a13).Finite := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact
    {
      x := all_finite a0 _ _ _ e0
      adj := all_finite a1 _ _ _ e1
      w0 := all_finite a2 _ _ _ e2
      b0 := fun j => all_finite a3 _ _ _ e3 (ix1 j)
      w11 := all_finite a4 _ _ _ e4
      b11 := fun j => all_finite a5 _ _ _ e5 (ix1 j)
      w12 := all_finite a6 _ _ _ e6
      b12 := fun j => all_finite a7 _ _ _ e7 (ix1 j)
      w21 := all_finite a8 _ _ _ e8
      b21 := fun j => all_finite a9 _ _ _ e9 (ix1 j)
      w22 := all_finite a10 _ _ _ e10
      b22 := fun j => all_finite a11 _ _ _ e11 (ix1 j)
      w6 := all_finite a12 _ _ _ e12
      b6 := fun j => all_finite a13 _ _ _ e13 (ix1 j) }

end Cert.FiniteParams

end
-- ==== Proof.lean ====
/-
  The proof of `Cert.Claim` for a graph autoencoder on 4096 nodes.

  Both programs compute the nodes' codes `z` (three dense layers with two leaky rectifiers between, on top of
  `adj · (x · W₀)`) and the decoded features `x_out = (z · zᵀ) · g + b₆`, where `g` is two more dense layers and a last
  product applied to `z`. The reference forms the 4096 × 4096 matrix `z · zᵀ`; the kernel walks four blocks of 1024 rows,
  keeps every block's codes in a scratch buffer, accumulates the 32 × 256 matrix `zᵀ · g` block after block from zero, and at
  the last block stores `z · (zᵀ · g) + b₆`. Over the extended reals the two agree because, the inputs being finite, every
  code and every decoded feature is a real number, and for real numbers `(z · zᵀ) · g = z · (zᵀ · g)` whatever the order of
  the sums.

  The pieces: the kernel body's run at each kind of grid point and the proof data of its pipeline (BodyShared … BodyObligation,
  once for the program read over words and once for its reading over the extended reals: the program text is the same),
  what the points leave behind in the network's terms (KernelPayloads, KernelValue, KernelArrays), the reference's stages row by
  row (RefStages), the network stated row by row (GcnRows), the agreement of its two forms for finite parameters
  (LibBlockReassoc, GcnFinite), and finiteness of the parameters from the precondition (FiniteParams).
-/
import proofs.«132249_g48112223650413_cont_sun_m_1297_17_alg».proof.Defs
import proofs.«132249_g48112223650413_cont_sun_m_1297_17_alg».proof.Proof.Gen.Kernel
import proofs.«132249_g48112223650413_cont_sun_m_1297_17_alg».proof.Proof.Gen.KernelIdeal
import proofs.«132249_g48112223650413_cont_sun_m_1297_17_alg».proof.Proof.Gen.ReferenceIdeal
import proofs.«132249_g48112223650413_cont_sun_m_1297_17_alg».proof.Proof.Gen.Pre_finite_inputs
import proofs.«132249_g48112223650413_cont_sun_m_1297_17_alg».proof.Proof.BodyObligation
import proofs.«132249_g48112223650413_cont_sun_m_1297_17_alg».proof.Proof.WordBodyObligation
import proofs.«132249_g48112223650413_cont_sun_m_1297_17_alg».proof.Proof.KernelArrays
import proofs.«132249_g48112223650413_cont_sun_m_1297_17_alg».proof.Proof.KernelValue
import proofs.«132249_g48112223650413_cont_sun_m_1297_17_alg».proof.Proof.RefStages
import proofs.«132249_g48112223650413_cont_sun_m_1297_17_alg».proof.Proof.FiniteParams
import Idealize.ShloMosaic.Adequacy
import Idealize.ShloMosaic.Init

noncomputable section

namespace Cert.Proof

open Idealize.ShloMosaic Idealize.ShloMosaic.TcCoe Idealize.SL.Sem Idealize.ShloMosaic.ValueIdx

/-- The program read over words runs and leaves its arguments alone. -/
theorem frame_word : Cert.frame_Kernel := fun m ρ _ => Cert.Kernel.Body.frame m ρ

/-- So does its reading over the extended reals. -/
theorem frame_ideal : Cert.frame_KernelIdeal := fun m ρ _ => Cert.KernelIdeal.Body.frame m ρ

/-- The reference's run, its results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- The last of the four grid points. -/
def lastPt : Fin Cert.KernelIdeal.cfg0.N := ⟨3, by rw [Cert.KernelIdeal.Body.four_points]; decide⟩

/-- The array of all codes, entry by entry: row `r` sits in block `r / 1024` at position `r % 1024`. -/
theorem codesArr_apply (m : (ℓ : Loc Cert.KernelIdeal.nD Cert.KernelIdeal.τ Cert.KernelIdeal.sig) → Buf (Elt Ideal) ℓ) (c : Dev Cert.KernelIdeal.nD)
    (r : Fin 4096) (k : Fin 32) :
    Cert.KernelIdeal.Body.codesArr m c (ix2 r k)
      = Cert.GcnRows.code (Cert.GcnRows.paramsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) r k := by
  unfold Cert.KernelIdeal.Body.codesArr
  refine (congrFun (Cert.KernelIdeal.KerValue.codeBlk_row m c _ _) _).trans ?_
  exact congrFun (congrArg _ (Fin.ext (by
    show 1024 * (r.val / 1024) + r.val % 1024 = r.val
    omega))) k

/-- Run from memories that agree on the arguments, the two programs end with equal results: the kernel's arrays are the
    narrow form of the network (what its points leave, read in the network's terms), the reference's the wide form, and the
    two forms agree because the precondition makes every parameter finite. -/
theorem algebraic : Cert.algebraic_KernelIdeal_ReferenceIdeal := by
  intro m ρ m' ρ' hpre hagree
  refine ⟨fun c => Cert.KernelIdeal.Body.xoutAt m c lastPt, fun c => Cert.KernelIdeal.Body.codesArr m c,
    Cert.KernelIdeal.Body.values_of_run m ρ (Cert.KernelIdeal.Body.run_main m ρ) lastPt rfl, ?_⟩
  refine (θ_run Cert.ReferenceIdeal.defs _ _).mono (fun r h c => ⟨?_, ?_, (h c).2.2⟩)
    (Cert.ReferenceIdeal.Value.run (F := Ideal) m' ρ')
  · obtain ⟨e0, e1, e2, e3, e4, e5, e6, e7, e8, e9, e10, e11, e12, e13⟩ := hagree c
    rw [(h c).1, Cert.ReferenceIdeal.RefValue.ref_out m' c, e0, e1, e2, e3, e4, e5, e6, e7, e8, e9, e10, e11, e12, e13]
    funext i
    obtain ⟨r, q, rfl⟩ : ∃ (r : Fin 4096) (q : Fin 256), i = ix2 r q := ⟨i 0, i 1, eq_ix2 i⟩
    exact ((Cert.GcnFinite.outNarrow_eq_outWide (Cert.FiniteParams.paramsOf_finite _ _ _ _ _ _ _ _ _ _ _ _ _ _ (hpre c)) r q).symm.trans
      (Cert.KernelIdeal.KerValue.xoutAt_last m c lastPt rfl r q).symm)
  · obtain ⟨e0, e1, e2, e3, e4, e5, e6, e7, e8, e9, e10, e11, e12, e13⟩ := hagree c
    rw [(h c).2.1, Cert.ReferenceIdeal.RefValue.ref_code m' c, e0, e1, e2, e3, e4, e5, e6, e7, e8, e9, e10, e11, e12, e13]
    funext i
    obtain ⟨r, k, rfl⟩ : ∃ (r : Fin 4096) (k : Fin 32), i = ix2 r k := ⟨i 0, i 1, eq_ix2 i⟩
    exact (codesArr_apply m c r k).symm

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
